-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v99)) (v1 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_v114) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x1 : Shape := ⟨2, ![500000, 1]⟩
abbrev S2x2000000 : Shape := ⟨2, ![2, 2000000]⟩
abbrev S2000000 : Shape := ⟨1, ![2000000]⟩
abbrev S500000 : Shape := ⟨1, ![500000]⟩
abbrev S1x16 : Shape := ⟨2, ![1, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S500000x1 : S_.BroadcastsInDim S500000x1 (![] : Fin 0 → Fin S500000x1.rank)
  reducesTo_S500000x1_S_d0_1 : S500000x1.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part5 {F : FTy → Type} [FloatOps F] (main_arg20 : FVec F S64 .f32) (main_arg21 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  main_v98

def fn_part4 {F : FTy → Type} [FloatOps F] (main_arg16 : FVec F S64x64 .f32) (main_arg17 : FVec F S64 .f32) (main_arg18 : FVec F S64x64 .f32) (main_arg19 : FVec F S64 .f32) (main_arg20 : FVec F S64 .f32) (main_arg21 : FVec F S64 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S64x64 .f32) (main_arg14 : FVec F S64 .f32) (main_arg15 : FVec F S64x64 .f32) (main_arg16 : FVec F S64x64 .f32) (main_arg17 : FVec F S64 .f32) (main_arg18 : FVec F S64x64 .f32) (main_arg19 : FVec F S64 .f32) (main_arg20 : FVec F S64 .f32) (main_arg21 : FVec F S64 .f32) (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_v63 main_v67

def fn_part2 {F : FTy → Type} [FloatOps F] (main_arg9 : FVec F S16x32 .f32) (main_arg10 : FVec F S32x64 .f32) (main_arg11 : FVec F S64 .f32) (main_arg12 : FVec F S32x64 .f32) (main_arg13 : FVec F S64x64 .f32) (main_arg14 : FVec F S64 .f32) (main_arg15 : FVec F S64x64 .f32) (main_arg16 : FVec F S64x64 .f32) (main_arg17 : FVec F S64 .f32) (main_arg18 : FVec F S64x64 .f32) (main_arg19 : FVec F S64 .f32) (main_arg20 : FVec F S64 .f32) (main_arg21 : FVec F S64 .f32) (main_v33 : IVec S_ 1) : IVec S_ 1 :=
  let main_v34 : FVec F S16x32 .f32 := Host.absf main_arg9
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S32x64 .f32 := Host.absf main_arg10
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S32x64 .f32 := Host.absf main_arg12
  let main_cst_18 : FVec F S_ .f32 := constant S_ .f32 0x7F800000#32
  let main_v50 : FVec F S32x64 .f32 := broadcastInDim S32x64 ![] bcast_S_S32x64 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S1x16 .f32) (main_arg7 : FVec F S16x32 .f32) (main_arg8 : FVec F S32 .f32) (main_arg9 : FVec F S16x32 .f32) (main_arg10 : FVec F S32x64 .f32) (main_arg11 : FVec F S64 .f32) (main_arg12 : FVec F S32x64 .f32) (main_arg13 : FVec F S64x64 .f32) (main_arg14 : FVec F S64 .f32) (main_arg15 : FVec F S64x64 .f32) (main_arg16 : FVec F S64x64 .f32) (main_arg17 : FVec F S64 .f32) (main_arg18 : FVec F S64x64 .f32) (main_arg19 : FVec F S64 .f32) (main_arg20 : FVec F S64 .f32) (main_arg21 : FVec F S64 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S1x16 .f32 := Host.absf main_arg6
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S16x32 .f32 := Host.absf main_arg7
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S500000x1 .f32) (main_arg1 : IVec S2x2000000 32) (main_arg2 : FVec F S2000000 .f32) (main_arg3 : IVec S500000 32) (main_arg4 : FVec F S1x16 .f32) (main_arg5 : FVec F S16 .f32) (main_arg6 : FVec F S1x16 .f32) (main_arg7 : FVec F S16x32 .f32) (main_arg8 : FVec F S32 .f32) (main_arg9 : FVec F S16x32 .f32) (main_arg10 : FVec F S32x64 .f32) (main_arg11 : FVec F S64 .f32) (main_arg12 : FVec F S32x64 .f32) (main_arg13 : FVec F S64x64 .f32) (main_arg14 : FVec F S64 .f32) (main_arg15 : FVec F S64x64 .f32) (main_arg16 : FVec F S64x64 .f32) (main_arg17 : FVec F S64 .f32) (main_arg18 : FVec F S64x64 .f32) (main_arg19 : FVec F S64 .f32) (main_arg20 : FVec F S64 .f32) (main_arg21 : FVec F S64 .f32) : IVec S_ 1 :=
  let main_v0 : FVec F S500000x1 .f32 := Host.absf main_arg0
  let main_cst : FVec F S_ .f32 := constant S_ .f32 0x7F800000#32
  let main_v1 : FVec F S500000x1 .f32 := broadcastInDim S500000x1 ![] bcast_S_S500000x1 main_cst
  let main_v2 : IVec S500000x1 1 := cmpf .olt main_v0 main_v1
  let main_c : IVec S_ 1 := constantI S_ 1 1#1
  let main_v3 : IVec S_ 1 := (fun x v => Host.reduce IntOp.andi x v reducesTo_S500000x1_S_d0_1 h_S_) main_v2 main_c
  let main_v4 : FVec F S2000000 .f32 := Host.absf main_arg2
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S1x16 .f32 := Host.absf main_arg4
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S500000x1 : Shape := ⟨2, ![500000, 1]⟩
abbrev S2x2000000 : Shape := ⟨2, ![2, 2000000]⟩
abbrev S2000000 : Shape := ⟨1, ![2000000]⟩
abbrev S500000 : Shape := ⟨1, ![500000]⟩
abbrev S1x16 : Shape := ⟨2, ![1, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S1x2000000 : Shape := ⟨2, ![1, 2000000]⟩
abbrev S_ : Shape := ⟨0, ![]⟩
abbrev S2000000x1 : Shape := ⟨2, ![2000000, 1]⟩
abbrev S500000x16 : Shape := ⟨2, ![500000, 16]⟩
abbrev S10000x1 : Shape := ⟨2, ![10000, 1]⟩
abbrev S10000x16 : Shape := ⟨2, ![10000, 16]⟩
abbrev S2000000x16 : Shape := ⟨2, ![2000000, 16]⟩
abbrev S1x32 : Shape := ⟨2, ![1, 32]⟩
abbrev S500000x32 : Shape := ⟨2, ![500000, 32]⟩
abbrev S10000x32 : Shape := ⟨2, ![10000, 32]⟩
abbrev S2000000x32 : Shape := ⟨2, ![2000000, 32]⟩
abbrev S1x64 : Shape := ⟨2, ![1, 64]⟩
abbrev S500000x64 : Shape := ⟨2, ![500000, 64]⟩
abbrev S10000x64 : Shape := ⟨2, ![10000, 64]⟩
abbrev S256x1 : Shape := ⟨2, ![256, 1]⟩
abbrev S256x64 : Shape := ⟨2, ![256, 64]⟩
abbrev S2000000x64 : Shape := ⟨2, ![2000000, 64]⟩

abbrev nBuf : Space → Nat
  | .hbm => 160
  | .vmem => 56
  | .smem => 0
  | _ => 0

abbrev hbmTy0_0 (i : Nat) : BufTy := match i % 128 with
  | 0 => ⟨S500000x1, .f32⟩
  | 1 => ⟨S2x2000000, .i32⟩
  | 2 => ⟨S2000000, .f32⟩
  | 3 => ⟨S500000, .i32⟩
  | 4 => ⟨S1x16, .f32⟩
  | 5 => ⟨S16, .f32⟩
  | 6 => ⟨S1x16, .f32⟩
  | 7 => ⟨S16x32, .f32⟩
  | 8 => ⟨S32, .f32⟩
  | 9 => ⟨S16x32, .f32⟩
  | 10 => ⟨S32x64, .f32⟩
  | 11 => ⟨S64, .f32⟩
  | 12 => ⟨S32x64, .f32⟩
  | 13 => ⟨S64x64, .f32⟩
  | 14 => ⟨S64, .f32⟩
  | 15 => ⟨S64x64, .f32⟩
  | 16 => ⟨S64x64, .f32⟩
  | 17 => ⟨S64, .f32⟩
  | 18 => ⟨S64x64, .f32⟩
  | 19 => ⟨S64, .f32⟩
  | 20 => ⟨S64, .f32⟩
  | 21 => ⟨S64, .f32⟩
  | 22 => ⟨S1x2000000, .i32⟩
  | 23 => ⟨S2000000, .i32⟩
  | 24 => ⟨S1x2000000, .i32⟩
  | 25 => ⟨S2000000, .i32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S2000000x1, .i32⟩
  | 34 => ⟨S2000000x1, .f32⟩
  | 35 => ⟨S2000000x1, .f32⟩
  | 36 => ⟨S2000000x1, .f32⟩
  | 37 => ⟨S_, .f32⟩
  | 38 => ⟨S500000x1, .f32⟩
  | 39 => ⟨S2000000x1, .i32⟩
  | 40 => ⟨S500000x1, .f32⟩
  | 41 => ⟨S1x16, .f32⟩
  | 42 => ⟨S500000x16, .f32⟩
  | 43 => ⟨S_, .i32⟩
  | 44 => ⟨S2000000, .i32⟩
  | 45 => ⟨S2000000, .i1⟩
  | 46 => ⟨S_, .i32⟩
  | 47 => ⟨S2000000, .i32⟩
  | 48 => ⟨S2000000, .i32⟩
  | 49 => ⟨S2000000, .i32⟩
  | 50 => ⟨S2000000x1, .i32⟩
  | 51 => ⟨S2000000x16, .f32⟩
  | 52 => ⟨S2000000x1, .f32⟩
  | 53 => ⟨S2000000x16, .f32⟩
  | 54 => ⟨S2000000x16, .f32⟩
  | 55 => ⟨S_, .f32⟩
  | 56 => ⟨S500000x16, .f32⟩
  | 57 => ⟨S2000000x1, .i32⟩
  | 58 => ⟨S500000x16, .f32⟩
  | 59 => ⟨S1x32, .f32⟩
  | 60 => ⟨S500000x32, .f32⟩
  | 61 => ⟨S_, .i32⟩
  | 62 => ⟨S2000000, .i32⟩
  | 63 => ⟨S2000000, .i1⟩
  | 64 => ⟨S_, .i32⟩
  | 65 => ⟨S2000000, .i32⟩
  | 66 => ⟨S2000000, .i32⟩
  | 67 => ⟨S2000000, .i32⟩
  | 68 => ⟨S2000000x1, .i32⟩
  | 69 => ⟨S2000000x32, .f32⟩
  | 70 => ⟨S2000000x1, .f32⟩
  | 71 => ⟨S2000000x32, .f32⟩
  | 72 => ⟨S2000000x32, .f32⟩
  | 73 => ⟨S_, .f32⟩
  | 74 => ⟨S500000x32, .f32⟩
  | 75 => ⟨S2000000x1, .i32⟩
  | 76 => ⟨S500000x32, .f32⟩
  | 77 => ⟨S1x64, .f32⟩
  | 78 => ⟨S500000x64, .f32⟩
  | 79 => ⟨S_, .f32⟩
  | 80 => ⟨S500000x1, .f32⟩
  | 81 => ⟨S_, .f32⟩
  | 82 => ⟨S256x1, .f32⟩
  | 83 => ⟨S500000x1, .i32⟩
  | 84 => ⟨S256x1, .f32⟩
  | 85 => ⟨S_, .f32⟩
  | 86 => ⟨S256x64, .f32⟩
  | 87 => ⟨S500000x1, .i32⟩
  | 88 => ⟨S256x64, .f32⟩
  | 89 => ⟨S256x64, .f32⟩
  | 90 => ⟨S256x64, .f32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000x64, .f32⟩
  | 100 => ⟨S1x64, .f32⟩
  | 101 => ⟨S500000x64, .f32⟩
  | 102 => ⟨S500000x64, .f32⟩
  | 103 => ⟨S500000x64, .f32⟩
  | 104 => ⟨S500000x64, .f32⟩
  | 105 => ⟨S_, .f32⟩
  | 106 => ⟨S256x64, .f32⟩
  | 107 => ⟨S500000x1, .i32⟩
  | 108 => ⟨S256x64, .f32⟩
  | 109 => ⟨S256x64, .f32⟩
  | 110 => ⟨S256x64, .f32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000x64, .f32⟩
  | 120 => ⟨S1x64, .f32⟩
  | 121 => ⟨S1x64, .f32⟩
  | 122 => ⟨S1x64, .f32⟩
  | 123 => ⟨S500000x64, .f32⟩
  | 124 => ⟨S_, .i32⟩
  | 125 => ⟨S2000000, .i32⟩
  | 126 => ⟨S2000000, .i1⟩
  | 127 => ⟨S_, .i32⟩
  | _ => ⟨S500000x1, .f32⟩

abbrev hbmTy0_1 (i : Nat) : BufTy := match i % 128 with
  | 0 => ⟨S2000000, .i32⟩
  | 1 => ⟨S2000000, .i32⟩
  | 2 => ⟨S2000000, .i32⟩
  | 3 => ⟨S2000000x1, .i32⟩
  | 4 => ⟨S2000000x64, .f32⟩
  | 5 => ⟨S2000000x1, .f32⟩
  | 6 => ⟨S2000000x64, .f32⟩
  | 7 => ⟨S2000000x64, .f32⟩
  | 8 => ⟨S_, .f32⟩
  | 9 => ⟨S500000x64, .f32⟩
  | 10 => ⟨S2000000x1, .i32⟩
  | 11 => ⟨S500000x64, .f32⟩
  | 12 => ⟨S1x64, .f32⟩
  | 13 => ⟨S500000x64, .f32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S2000000x64, .f32⟩
  | 23 => ⟨S2000000x1, .f32⟩
  | 24 => ⟨S2000000x64, .f32⟩
  | 25 => ⟨S2000000x64, .f32⟩
  | 26 => ⟨S_, .f32⟩
  | 27 => ⟨S500000x64, .f32⟩
  | 28 => ⟨S2000000x1, .i32⟩
  | 29 => ⟨S500000x64, .f32⟩
  | 30 => ⟨S1x64, .f32⟩
  | 31 => ⟨S500000x64, .f32⟩
  | _ => ⟨S500000x1, .f32⟩

abbrev hbmTy (i : Nat) : BufTy := match i / 128 with
  | 0 => hbmTy0_0 i
  | 1 => hbmTy0_1 i
  | _ => ⟨S500000x1, .f32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x1, .f32⟩
  | .local _ .vmem, ⟨2, _⟩ => ⟨S10000x1, .f32⟩
  | .local _ .vmem, ⟨3, _⟩ => ⟨S10000x1, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S16x32, .f32⟩
  | .local _ .vmem, ⟨14, _⟩ => ⟨S1x32, .f32⟩
  | .local _ .vmem, ⟨15, _⟩ => ⟨S16x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x64, .f32⟩
  | .local _ .vmem, ⟨23, _⟩ => ⟨S1x64, .f32⟩
  | .local _ .vmem, ⟨24, _⟩ => ⟨S32x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S64x64, .f32⟩
  | .local _ .vmem, ⟨43, _⟩ => ⟨S1x64, .f32⟩
  | .local _ .vmem, ⟨44, _⟩ => ⟨S64x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S64x64, .f32⟩
  | .local _ .vmem, ⟨52, _⟩ => ⟨S1x64, .f32⟩
  | .local _ .vmem, ⟨53, _⟩ => ⟨S64x64, .f32⟩
  | .local _ .vmem, ⟨54, _⟩ => ⟨S10000x64, .f32⟩
  | .local _ .vmem, ⟨55, _⟩ => ⟨S10000x64, .f32⟩
  | _, _ => ⟨S500000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_1 : Ref sig .tc := ⟨.hbm, 43, rfl⟩
abbrev main_v18 : Ref sig .tc := ⟨.hbm, 44, rfl⟩
abbrev main_v19 : Ref sig .tc := ⟨.hbm, 45, rfl⟩
abbrev main_c_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_3 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_4 : Ref sig .tc := ⟨.hbm, 61, rfl⟩
abbrev main_v33 : Ref sig .tc := ⟨.hbm, 62, rfl⟩
abbrev main_v34 : Ref sig .tc := ⟨.hbm, 63, rfl⟩
abbrev main_c_5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_6 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_7 : Ref sig .tc := ⟨.hbm, 79, rfl⟩
abbrev main_v48 : Ref sig .tc := ⟨.hbm, 80, rfl⟩
abbrev main_cst_8 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_9 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_10 : Ref sig .tc := ⟨.hbm, 91, rfl⟩
abbrev main_v57 : Ref sig .tc := ⟨.hbm, 92, rfl⟩
abbrev main_v58 : Ref sig .tc := ⟨.hbm, 93, rfl⟩
abbrev main_c_11 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_12 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_13 : Ref sig .tc := ⟨.hbm, 111, rfl⟩
abbrev main_v74 : Ref sig .tc := ⟨.hbm, 112, rfl⟩
abbrev main_v75 : Ref sig .tc := ⟨.hbm, 113, rfl⟩
abbrev main_c_14 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_15 : Ref sig .tc := ⟨.hbm, 124, rfl⟩
abbrev main_v85 : Ref sig .tc := ⟨.hbm, 125, rfl⟩
abbrev main_v86 : Ref sig .tc := ⟨.hbm, 126, rfl⟩
abbrev main_c_16 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_17 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_18 : Ref sig .tc := ⟨.hbm, 142, rfl⟩
abbrev main_v100 : Ref sig .tc := ⟨.hbm, 143, rfl⟩
abbrev main_v101 : Ref sig .tc := ⟨.hbm, 144, rfl⟩
abbrev main_c_19 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_20 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem5_1 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S500000x1 : S_.BroadcastsInDim S500000x1 (![] : Fin 0 → Fin S500000x1.rank)
  shapeCasts_S16_S1x16 : S16.ShapeCasts S1x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S2000000x1_S2000000x16_0_1 : S2000000x1.BroadcastsInDim S2000000x16 (![0, 1] : Fin 2 → Fin S2000000x16.rank)
  bcast_S_S500000x16 : S_.BroadcastsInDim S500000x16 (![] : Fin 0 → Fin S500000x16.rank)
  shapeCasts_S32_S1x32 : S32.ShapeCasts S1x32
  shapeCasts_S10000x16_S10000x16 : S10000x16.ShapeCasts S10000x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S2000000x1_S2000000x32_0_1 : S2000000x1.BroadcastsInDim S2000000x32 (![0, 1] : Fin 2 → Fin S2000000x32.rank)
  bcast_S_S500000x32 : S_.BroadcastsInDim S500000x32 (![] : Fin 0 → Fin S500000x32.rank)
  shapeCasts_S64_S1x64 : S64.ShapeCasts S1x64
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S256x1 : S_.BroadcastsInDim S256x1 (![] : Fin 0 → Fin S256x1.rank)
  bcast_S500000_S500000x1_0 : S500000.BroadcastsInDim S500000x1 (![0] : Fin 1 → Fin S500000x1.rank)
  bcast_S_S256x64 : S_.BroadcastsInDim S256x64 (![] : Fin 0 → Fin S256x64.rank)
  bcast_S256x1_S256x64_0_1 : S256x1.BroadcastsInDim S256x64 (![0, 1] : Fin 2 → Fin S256x64.rank)
  bcast_S_S500000 : S_.BroadcastsInDim S500000 (![] : Fin 0 → Fin S500000.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  shapeCasts_S10000x64_S10000x64 : S10000x64.ShapeCasts S10000x64
  bcast_S2000000x1_S2000000x64_0_1 : S2000000x1.BroadcastsInDim S2000000x64 (![0, 1] : Fin 2 → Fin S2000000x64.rank)
  bcast_S_S500000x64 : S_.BroadcastsInDim S500000x64 (![] : Fin 0 → Fin S500000x64.rank)
  inb_S64x64_S64x64_0_0 : ∀ a, (![0, 0] : Fin 2 → Nat) a + S64x64.size a ≤ S64x64.size a
  h_S64x64 : 0 < S64x64.numel
  gather_S500000x1_S2000000x1_S2000000x1_1_0_n_n_0_1_11_wf : GatherDims.WF S500000x1 S2000000x1 S2000000x1 [1] [0] [] [0] [] 1 ![1, 1]
  scatter_S500000x1_S2000000x1_S2000000x1_1_0_0_1_wf : ScatterDims.WF S500000x1 S2000000x1 S2000000x1 [1] [0] [0] 1
  dot_S10000x1_S1x16_S10000x16_1_0_0_1_n_n_wf : DotDims.WF S10000x1 S1x16 S10000x16 [1] [0] [0] [1] [] []
  gather_S500000x16_S2000000x1_S2000000x16_1_0_n_n_0_1_116_wf : GatherDims.WF S500000x16 S2000000x1 S2000000x16 [1] [0] [] [0] [] 1 ![1, 16]
  scatter_S500000x16_S2000000x1_S2000000x16_1_0_0_1_wf : ScatterDims.WF S500000x16 S2000000x1 S2000000x16 [1] [0] [0] 1
  dot_S10000x16_S16x32_S10000x32_1_0_0_1_n_n_wf : DotDims.WF S10000x16 S16x32 S10000x32 [1] [0] [0] [1] [] []
  gather_S500000x32_S2000000x1_S2000000x32_1_0_n_n_0_1_132_wf : GatherDims.WF S500000x32 S2000000x1 S2000000x32 [1] [0] [] [0] [] 1 ![1, 32]
  scatter_S500000x32_S2000000x1_S2000000x32_1_0_0_1_wf : ScatterDims.WF S500000x32 S2000000x1 S2000000x32 [1] [0] [0] 1
  dot_S10000x32_S32x64_S10000x64_1_0_0_1_n_n_wf : DotDims.WF S10000x32 S32x64 S10000x64 [1] [0] [0] [1] [] []
  scatter_S256x1_S500000x1_S500000x1_1_0_0_1_wf : ScatterDims.WF S256x1 S500000x1 S500000x1 [1] [0] [0] 1
  scatter_S256x64_S500000x1_S500000x64_1_0_0_1_wf : ScatterDims.WF S256x64 S500000x1 S500000x64 [1] [0] [0] 1
  gather_S256x64_S500000x1_S500000x64_1_0_n_n_0_1_164_wf : GatherDims.WF S256x64 S500000x1 S500000x64 [1] [0] [] [0] [] 1 ![1, 64]
  gather_S500000x64_S2000000x1_S2000000x64_1_0_n_n_0_1_164_wf : GatherDims.WF S500000x64 S2000000x1 S2000000x64 [1] [0] [] [0] [] 1 ![1, 64]
  scatter_S500000x64_S2000000x1_S2000000x64_1_0_0_1_wf : ScatterDims.WF S500000x64 S2000000x1 S2000000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S500000x1.size a
  hwx0_0 : ∀ i : grid0.Coords, EltTy.bits .f32 = 32 ∨ (Rect.block (s := S500000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S500000x1.size a
  hwx0_1 : ∀ i : grid0.Coords, EltTy.bits .f32 = 32 ∨ (Rect.block (s := S500000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x16.size a ≤ S500000x16.size a
  hwx0_5 : ∀ i : grid0.Coords, EltTy.bits .f32 = 32 ∨ (Rect.block (s := S500000x16) S10000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S500000x16.size a
  hwx1_0 : ∀ i : grid1.Coords, EltTy.bits .f32 = 32 ∨ (Rect.block (s := S500000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S500000x16.size a
  hwx1_1 : ∀ i : grid1.Coords, EltTy.bits .f32 = 32 ∨ (Rect.block (s := S500000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x32.size a ≤ S16x32.size a
  hwx1_4 : ∀ i : grid1.Coords, EltTy.bits .f32 = 32 ∨ (Rect.block (s := S16x32) S16x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S500000x32.size a
  hwx1_5 : ∀ i : grid1.Coords, EltTy.bits .f32 = 32 ∨ (Rect.block (s := S500000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S500000x32.size a
  hwx2_0 : ∀ i : grid2.Coords, EltTy.bits .f32 = 32 ∨ (Rect.block (s := S500000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S500000x32.size a
  hwx2_1 : ∀ i : grid2.Coords, EltTy.bits .f32 = 32 ∨ (Rect.block (s := S500000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x64.size a ≤ S32x64.size a
  hwx2_4 : ∀ i : grid2.Coords, EltTy.bits .f32 = 32 ∨ (Rect.block (s := S32x64) S32x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S500000x64.size a
  hwx2_5 : ∀ i : grid2.Coords, EltTy.bits .f32 = 32 ∨ (Rect.block (s := S500000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S500000x64.size a
  hwx3_0 : ∀ i : grid3.Coords, EltTy.bits .f32 = 32 ∨ (Rect.block (s := S500000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S500000x64.size a
  hwx3_1 : ∀ i : grid3.Coords, EltTy.bits .f32 = 32 ∨ (Rect.block (s := S500000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S500000x64.size a
  hwx3_2 : ∀ i : grid3.Coords, EltTy.bits .f32 = 32 ∨ (Rect.block (s := S500000x64) S10000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S500000x64.size a
  hwx3_6 : ∀ i : grid3.Coords, EltTy.bits .f32 = 32 ∨ (Rect.block (s := S500000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S500000x64.size a
  hwx4_0 : ∀ i : grid4.Coords, EltTy.bits .f32 = 32 ∨ (Rect.block (s := S500000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S500000x64.size a
  hwx4_1 : ∀ i : grid4.Coords, EltTy.bits .f32 = 32 ∨ (Rect.block (s := S500000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S500000x64.size a
  hwx4_5 : ∀ i : grid4.Coords, EltTy.bits .f32 = 32 ∨ (Rect.block (s := S500000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S500000x64.size a
  hwx5_0 : ∀ i : grid5.Coords, EltTy.bits .f32 = 32 ∨ (Rect.block (s := S500000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S500000x64.size a
  hwx5_1 : ∀ i : grid5.Coords, EltTy.bits .f32 = 32 ∨ (Rect.block (s := S500000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S500000x64.size a
  hwx5_5 : ∀ i : grid5.Coords, EltTy.bits .f32 = 32 ∨ (Rect.block (s := S500000x64) S10000x64.size (cc5_transform_5 i) (hinb5_5 i)).WholeWords (EltTy.packing .f32)

variable [Facts₀]

def gather_S500000x1_S2000000x1_S2000000x1_1_0_n_n_0_1_11 : GatherDims S500000x1 S2000000x1 S2000000x1 where
  offsetDims := [1]
  collapsedSliceDims := [0]
  operandBatchingDims := []
  startIndicesBatchingDims := []
  startIndexMap := [0]
  indexVectorDim := 1
  sliceSizes := ![1, 1]
  wf := gather_S500000x1_S2000000x1_S2000000x1_1_0_n_n_0_1_11_wf
def scatter_S500000x1_S2000000x1_S2000000x1_1_0_0_1 : ScatterDims S500000x1 S2000000x1 S2000000x1 where
  updateWindowDims := [1]
  insertedWindowDims := [0]
  scatterDimsToOperandDims := [0]
  indexVectorDim := 1
  wf := scatter_S500000x1_S2000000x1_S2000000x1_1_0_0_1_wf
def dot_S10000x1_S1x16_S10000x16_1_0_0_1_n_n : DotDims S10000x1 S1x16 S10000x16 where
  lhsContracting := [1]
  rhsContracting := [0]
  lhsNonContracting := [0]
  rhsNonContracting := [1]
  lhsBatch := []
  rhsBatch := []
  wf := dot_S10000x1_S1x16_S10000x16_1_0_0_1_n_n_wf
def gather_S500000x16_S2000000x1_S2000000x16_1_0_n_n_0_1_116 : GatherDims S500000x16 S2000000x1 S2000000x16 where
  offsetDims := [1]
  collapsedSliceDims := [0]
  operandBatchingDims := []
  startIndicesBatchingDims := []
  startIndexMap := [0]
  indexVectorDim := 1
  sliceSizes := ![1, 16]
  wf := gather_S500000x16_S2000000x1_S2000000x16_1_0_n_n_0_1_116_wf
def scatter_S500000x16_S2000000x1_S2000000x16_1_0_0_1 : ScatterDims S500000x16 S2000000x1 S2000000x16 where
  updateWindowDims := [1]
  insertedWindowDims := [0]
  scatterDimsToOperandDims := [0]
  indexVectorDim := 1
  wf := scatter_S500000x16_S2000000x1_S2000000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S500000x32_S2000000x1_S2000000x32_1_0_n_n_0_1_132 : GatherDims S500000x32 S2000000x1 S2000000x32 where
  offsetDims := [1]
  collapsedSliceDims := [0]
  operandBatchingDims := []
  startIndicesBatchingDims := []
  startIndexMap := [0]
  indexVectorDim := 1
  sliceSizes := ![1, 32]
  wf := gather_S500000x32_S2000000x1_S2000000x32_1_0_n_n_0_1_132_wf
def scatter_S500000x32_S2000000x1_S2000000x32_1_0_0_1 : ScatterDims S500000x32 S2000000x1 S2000000x32 where
  updateWindowDims := [1]
  insertedWindowDims := [0]
  scatterDimsToOperandDims := [0]
  indexVectorDim := 1
  wf := scatter_S500000x32_S2000000x1_S2000000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def scatter_S256x1_S500000x1_S500000x1_1_0_0_1 : ScatterDims S256x1 S500000x1 S500000x1 where
  updateWindowDims := [1]
  insertedWindowDims := [0]
  scatterDimsToOperandDims := [0]
  indexVectorDim := 1
  wf := scatter_S256x1_S500000x1_S500000x1_1_0_0_1_wf
def scatter_S256x64_S500000x1_S500000x64_1_0_0_1 : ScatterDims S256x64 S500000x1 S500000x64 where
  updateWindowDims := [1]
  insertedWindowDims := [0]
  scatterDimsToOperandDims := [0]
  indexVectorDim := 1
  wf := scatter_S256x64_S500000x1_S500000x64_1_0_0_1_wf
def gather_S256x64_S500000x1_S500000x64_1_0_n_n_0_1_164 : GatherDims S256x64 S500000x1 S500000x64 where
  offsetDims := [1]
  collapsedSliceDims := [0]
  operandBatchingDims := []
  startIndicesBatchingDims := []
  startIndexMap := [0]
  indexVectorDim := 1
  sliceSizes := ![1, 64]
  wf := gather_S256x64_S500000x1_S500000x64_1_0_n_n_0_1_164_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v15) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S16x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S32x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v80) S10000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v81) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v84) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v97) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v99) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v112) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg16) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg18) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v114) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S500000x1 : Shape := ⟨2, ![500000, 1]⟩
abbrev S2x2000000 : Shape := ⟨2, ![2, 2000000]⟩
abbrev S2000000 : Shape := ⟨1, ![2000000]⟩
abbrev S500000 : Shape := ⟨1, ![500000]⟩
abbrev S1x16 : Shape := ⟨2, ![1, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S1x2000000 : Shape := ⟨2, ![1, 2000000]⟩
abbrev S_ : Shape := ⟨0, ![]⟩
abbrev S2000000x1 : Shape := ⟨2, ![2000000, 1]⟩
abbrev S500000x16 : Shape := ⟨2, ![500000, 16]⟩
abbrev S2000000x16 : Shape := ⟨2, ![2000000, 16]⟩
abbrev S500000x32 : Shape := ⟨2, ![500000, 32]⟩
abbrev S1x32 : Shape := ⟨2, ![1, 32]⟩
abbrev S2000000x32 : Shape := ⟨2, ![2000000, 32]⟩
abbrev S500000x64 : Shape := ⟨2, ![500000, 64]⟩
abbrev S1x64 : Shape := ⟨2, ![1, 64]⟩
abbrev S256x1 : Shape := ⟨2, ![256, 1]⟩
abbrev S256x64 : Shape := ⟨2, ![256, 64]⟩
abbrev S2000000x64 : Shape := ⟨2, ![2000000, 64]⟩

abbrev nBuf : Space → Nat
  | .hbm => 196
  | .vmem => 0
  | .smem => 0
  | _ => 0

abbrev hbmTy0_0 (i : Nat) : BufTy := match i % 128 with
  | 0 => ⟨S500000x1, .f32⟩
  | 1 => ⟨S2x2000000, .i32⟩
  | 2 => ⟨S2000000, .f32⟩
  | 3 => ⟨S500000, .i32⟩
  | 4 => ⟨S1x16, .f32⟩
  | 5 => ⟨S16, .f32⟩
  | 6 => ⟨S1x16, .f32⟩
  | 7 => ⟨S16x32, .f32⟩
  | 8 => ⟨S32, .f32⟩
  | 9 => ⟨S16x32, .f32⟩
  | 10 => ⟨S32x64, .f32⟩
  | 11 => ⟨S64, .f32⟩
  | 12 => ⟨S32x64, .f32⟩
  | 13 => ⟨S64x64, .f32⟩
  | 14 => ⟨S64, .f32⟩
  | 15 => ⟨S64x64, .f32⟩
  | 16 => ⟨S64x64, .f32⟩
  | 17 => ⟨S64, .f32⟩
  | 18 => ⟨S64x64, .f32⟩
  | 19 => ⟨S64, .f32⟩
  | 20 => ⟨S64, .f32⟩
  | 21 => ⟨S64, .f32⟩
  | 22 => ⟨S1x2000000, .i32⟩
  | 23 => ⟨S2000000, .i32⟩
  | 24 => ⟨S1x2000000, .i32⟩
  | 25 => ⟨S2000000, .i32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S2000000x1, .i32⟩
  | 34 => ⟨S2000000x1, .f32⟩
  | 35 => ⟨S2000000x1, .f32⟩
  | 36 => ⟨S2000000x1, .f32⟩
  | 37 => ⟨S_, .f32⟩
  | 38 => ⟨S500000x1, .f32⟩
  | 39 => ⟨S2000000x1, .i32⟩
  | 40 => ⟨S500000x1, .f32⟩
  | 41 => ⟨S500000x16, .f32⟩
  | 42 => ⟨S1x16, .f32⟩
  | 43 => ⟨S500000x16, .f32⟩
  | 44 => ⟨S500000x16, .f32⟩
  | 45 => ⟨S500000x16, .f32⟩
  | 46 => ⟨S500000x16, .f32⟩
  | 47 => ⟨S_, .f32⟩
  | 48 => ⟨S500000x16, .f32⟩
  | 49 => ⟨S500000x16, .f32⟩
  | 50 => ⟨S_, .i32⟩
  | 51 => ⟨S2000000, .i32⟩
  | 52 => ⟨S2000000, .i1⟩
  | 53 => ⟨S_, .i32⟩
  | 54 => ⟨S2000000, .i32⟩
  | 55 => ⟨S2000000, .i32⟩
  | 56 => ⟨S2000000, .i32⟩
  | 57 => ⟨S2000000x1, .i32⟩
  | 58 => ⟨S2000000x16, .f32⟩
  | 59 => ⟨S2000000x1, .f32⟩
  | 60 => ⟨S2000000x16, .f32⟩
  | 61 => ⟨S2000000x16, .f32⟩
  | 62 => ⟨S_, .f32⟩
  | 63 => ⟨S500000x16, .f32⟩
  | 64 => ⟨S2000000x1, .i32⟩
  | 65 => ⟨S500000x16, .f32⟩
  | 66 => ⟨S500000x32, .f32⟩
  | 67 => ⟨S1x32, .f32⟩
  | 68 => ⟨S500000x32, .f32⟩
  | 69 => ⟨S500000x32, .f32⟩
  | 70 => ⟨S500000x32, .f32⟩
  | 71 => ⟨S500000x32, .f32⟩
  | 72 => ⟨S_, .f32⟩
  | 73 => ⟨S500000x32, .f32⟩
  | 74 => ⟨S500000x32, .f32⟩
  | 75 => ⟨S_, .i32⟩
  | 76 => ⟨S2000000, .i32⟩
  | 77 => ⟨S2000000, .i1⟩
  | 78 => ⟨S_, .i32⟩
  | 79 => ⟨S2000000, .i32⟩
  | 80 => ⟨S2000000, .i32⟩
  | 81 => ⟨S2000000, .i32⟩
  | 82 => ⟨S2000000x1, .i32⟩
  | 83 => ⟨S2000000x32, .f32⟩
  | 84 => ⟨S2000000x1, .f32⟩
  | 85 => ⟨S2000000x32, .f32⟩
  | 86 => ⟨S2000000x32, .f32⟩
  | 87 => ⟨S_, .f32⟩
  | 88 => ⟨S500000x32, .f32⟩
  | 89 => ⟨S2000000x1, .i32⟩
  | 90 => ⟨S500000x32, .f32⟩
  | 91 => ⟨S500000x64, .f32⟩
  | 92 => ⟨S1x64, .f32⟩
  | 93 => ⟨S500000x64, .f32⟩
  | 94 => ⟨S500000x64, .f32⟩
  | 95 => ⟨S500000x64, .f32⟩
  | 96 => ⟨S500000x64, .f32⟩
  | 97 => ⟨S_, .f32⟩
  | 98 => ⟨S500000x64, .f32⟩
  | 99 => ⟨S500000x64, .f32⟩
  | 100 => ⟨S_, .f32⟩
  | 101 => ⟨S500000x1, .f32⟩
  | 102 => ⟨S_, .f32⟩
  | 103 => ⟨S256x1, .f32⟩
  | 104 => ⟨S500000x1, .i32⟩
  | 105 => ⟨S256x1, .f32⟩
  | 106 => ⟨S_, .f32⟩
  | 107 => ⟨S256x64, .f32⟩
  | 108 => ⟨S500000x1, .i32⟩
  | 109 => ⟨S256x64, .f32⟩
  | 110 => ⟨S256x64, .f32⟩
  | 111 => ⟨S256x64, .f32⟩
  | 112 => ⟨S_, .i32⟩
  | 113 => ⟨S500000, .i32⟩
  | 114 => ⟨S500000, .i1⟩
  | 115 => ⟨S_, .i32⟩
  | 116 => ⟨S500000, .i32⟩
  | 117 => ⟨S500000, .i32⟩
  | 118 => ⟨S500000, .i32⟩
  | 119 => ⟨S500000x1, .i32⟩
  | 120 => ⟨S500000x64, .f32⟩
  | 121 => ⟨S1x64, .f32⟩
  | 122 => ⟨S500000x64, .f32⟩
  | 123 => ⟨S500000x64, .f32⟩
  | 124 => ⟨S500000x64, .f32⟩
  | 125 => ⟨S500000x64, .f32⟩
  | 126 => ⟨S_, .f32⟩
  | 127 => ⟨S256x64, .f32⟩
  | _ => ⟨S500000x1, .f32⟩

abbrev hbmTy0_1 (i : Nat) : BufTy := match i % 128 with
  | 0 => ⟨S500000x1, .i32⟩
  | 1 => ⟨S256x64, .f32⟩
  | 2 => ⟨S256x64, .f32⟩
  | 3 => ⟨S256x64, .f32⟩
  | 4 => ⟨S1x64, .f32⟩
  | 5 => ⟨S500000x64, .f32⟩
  | 6 => ⟨S500000x64, .f32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x64, .f32⟩
  | 16 => ⟨S_, .f32⟩
  | 17 => ⟨S500000x64, .f32⟩
  | 18 => ⟨S500000x64, .f32⟩
  | 19 => ⟨S500000x64, .f32⟩
  | 20 => ⟨S500000x64, .f32⟩
  | 21 => ⟨S1x64, .f32⟩
  | 22 => ⟨S500000x64, .f32⟩
  | 23 => ⟨S500000x64, .f32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S2000000x64, .f32⟩
  | 33 => ⟨S2000000x1, .f32⟩
  | 34 => ⟨S2000000x64, .f32⟩
  | 35 => ⟨S2000000x64, .f32⟩
  | 36 => ⟨S_, .f32⟩
  | 37 => ⟨S500000x64, .f32⟩
  | 38 => ⟨S2000000x1, .i32⟩
  | 39 => ⟨S500000x64, .f32⟩
  | 40 => ⟨S500000x64, .f32⟩
  | 41 => ⟨S1x64, .f32⟩
  | 42 => ⟨S500000x64, .f32⟩
  | 43 => ⟨S500000x64, .f32⟩
  | 44 => ⟨S500000x64, .f32⟩
  | 45 => ⟨S500000x64, .f32⟩
  | 46 => ⟨S_, .i32⟩
  | 47 => ⟨S2000000, .i32⟩
  | 48 => ⟨S2000000, .i1⟩
  | 49 => ⟨S_, .i32⟩
  | 50 => ⟨S2000000, .i32⟩
  | 51 => ⟨S2000000, .i32⟩
  | 52 => ⟨S2000000, .i32⟩
  | 53 => ⟨S2000000x1, .i32⟩
  | 54 => ⟨S2000000x64, .f32⟩
  | 55 => ⟨S2000000x1, .f32⟩
  | 56 => ⟨S2000000x64, .f32⟩
  | 57 => ⟨S2000000x64, .f32⟩
  | 58 => ⟨S_, .f32⟩
  | 59 => ⟨S500000x64, .f32⟩
  | 60 => ⟨S2000000x1, .i32⟩
  | 61 => ⟨S500000x64, .f32⟩
  | 62 => ⟨S500000x64, .f32⟩
  | 63 => ⟨S1x64, .f32⟩
  | 64 => ⟨S500000x64, .f32⟩
  | 65 => ⟨S500000x64, .f32⟩
  | 66 => ⟨S500000x64, .f32⟩
  | 67 => ⟨S500000x64, .f32⟩
  | _ => ⟨S500000x1, .f32⟩

abbrev hbmTy (i : Nat) : BufTy := match i / 128 with
  | 0 => hbmTy0_0 i
  | 1 => hbmTy0_1 i
  | _ => ⟨S500000x1, .f32⟩

abbrev bufTy : (tb : Table) → Fin (tcTables nBuf tb) → BufTy
  | .hbm, ⟨i, _⟩ => hbmTy i
  | _, _ => ⟨S500000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_call0_cst : Ref sig .tc := ⟨.hbm, 47, rfl⟩
abbrev main_call0_v0 : Ref sig .tc := ⟨.hbm, 48, rfl⟩
abbrev main_v22 : Ref sig .tc := ⟨.hbm, 49, rfl⟩
abbrev main_c_1 : Ref sig .tc := ⟨.hbm, 50, rfl⟩
abbrev main_v23 : Ref sig .tc := ⟨.hbm, 51, rfl⟩
abbrev main_v24 : Ref sig .tc := ⟨.hbm, 52, rfl⟩
abbrev main_c_2 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_3 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_call1_cst : Ref sig .tc := ⟨.hbm, 72, rfl⟩
abbrev main_call1_v0 : Ref sig .tc := ⟨.hbm, 73, rfl⟩
abbrev main_v42 : Ref sig .tc := ⟨.hbm, 74, rfl⟩
abbrev main_c_4 : Ref sig .tc := ⟨.hbm, 75, rfl⟩
abbrev main_v43 : Ref sig .tc := ⟨.hbm, 76, rfl⟩
abbrev main_v44 : Ref sig .tc := ⟨.hbm, 77, rfl⟩
abbrev main_c_5 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_6 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_call2_cst : Ref sig .tc := ⟨.hbm, 97, rfl⟩
abbrev main_call2_v0 : Ref sig .tc := ⟨.hbm, 98, rfl⟩
abbrev main_v62 : Ref sig .tc := ⟨.hbm, 99, rfl⟩
abbrev main_cst_7 : Ref sig .tc := ⟨.hbm, 100, rfl⟩
abbrev main_v63 : Ref sig .tc := ⟨.hbm, 101, rfl⟩
abbrev main_cst_8 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_9 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_10 : Ref sig .tc := ⟨.hbm, 112, rfl⟩
abbrev main_v72 : Ref sig .tc := ⟨.hbm, 113, rfl⟩
abbrev main_v73 : Ref sig .tc := ⟨.hbm, 114, rfl⟩
abbrev main_c_11 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_12 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_13 : Ref sig .tc := ⟨.hbm, 135, rfl⟩
abbrev main_v92 : Ref sig .tc := ⟨.hbm, 136, rfl⟩
abbrev main_v93 : Ref sig .tc := ⟨.hbm, 137, rfl⟩
abbrev main_c_14 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_15 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_c_16 : Ref sig .tc := ⟨.hbm, 152, rfl⟩
abbrev main_v106 : Ref sig .tc := ⟨.hbm, 153, rfl⟩
abbrev main_v107 : Ref sig .tc := ⟨.hbm, 154, rfl⟩
abbrev main_c_17 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_18 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_c_19 : Ref sig .tc := ⟨.hbm, 174, rfl⟩
abbrev main_v125 : Ref sig .tc := ⟨.hbm, 175, rfl⟩
abbrev main_v126 : Ref sig .tc := ⟨.hbm, 176, rfl⟩
abbrev main_c_20 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_21 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S500000x1 : S_.BroadcastsInDim S500000x1 (![] : Fin 0 → Fin S500000x1.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S_S500000x16 : S_.BroadcastsInDim S500000x16 (![] : Fin 0 → Fin S500000x16.rank)
  bcast_S2000000x1_S2000000x16_0_1 : S2000000x1.BroadcastsInDim S2000000x16 (![0, 1] : Fin 2 → Fin S2000000x16.rank)
  bcast_S32_S1x32_1 : S32.BroadcastsInDim S1x32 (![1] : Fin 1 → Fin S1x32.rank)
  bcast_S1x32_S500000x32_0_1 : S1x32.BroadcastsInDim S500000x32 (![0, 1] : Fin 2 → Fin S500000x32.rank)
  bcast_S_S500000x32 : S_.BroadcastsInDim S500000x32 (![] : Fin 0 → Fin S500000x32.rank)
  bcast_S2000000x1_S2000000x32_0_1 : S2000000x1.BroadcastsInDim S2000000x32 (![0, 1] : Fin 2 → Fin S2000000x32.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S_S256x1 : S_.BroadcastsInDim S256x1 (![] : Fin 0 → Fin S256x1.rank)
  bcast_S500000_S500000x1_0 : S500000.BroadcastsInDim S500000x1 (![0] : Fin 1 → Fin S500000x1.rank)
  bcast_S_S256x64 : S_.BroadcastsInDim S256x64 (![] : Fin 0 → Fin S256x64.rank)
  bcast_S256x1_S256x64_0_1 : S256x1.BroadcastsInDim S256x64 (![0, 1] : Fin 2 → Fin S256x64.rank)
  bcast_S_S500000 : S_.BroadcastsInDim S500000 (![] : Fin 0 → Fin S500000.rank)
  bcast_S2000000x1_S2000000x64_0_1 : S2000000x1.BroadcastsInDim S2000000x64 (![0, 1] : Fin 2 → Fin S2000000x64.rank)
  gather_S500000x1_S2000000x1_S2000000x1_1_0_n_n_0_1_11_wf : GatherDims.WF S500000x1 S2000000x1 S2000000x1 [1] [0] [] [0] [] 1 ![1, 1]
  scatter_S500000x1_S2000000x1_S2000000x1_1_0_0_1_wf : ScatterDims.WF S500000x1 S2000000x1 S2000000x1 [1] [0] [0] 1
  dot_S500000x1_S1x16_S500000x16_1_0_0_1_n_n_wf : DotDims.WF S500000x1 S1x16 S500000x16 [1] [0] [0] [1] [] []
  gather_S500000x16_S2000000x1_S2000000x16_1_0_n_n_0_1_116_wf : GatherDims.WF S500000x16 S2000000x1 S2000000x16 [1] [0] [] [0] [] 1 ![1, 16]
  scatter_S500000x16_S2000000x1_S2000000x16_1_0_0_1_wf : ScatterDims.WF S500000x16 S2000000x1 S2000000x16 [1] [0] [0] 1
  dot_S500000x16_S16x32_S500000x32_1_0_0_1_n_n_wf : DotDims.WF S500000x16 S16x32 S500000x32 [1] [0] [0] [1] [] []
  gather_S500000x32_S2000000x1_S2000000x32_1_0_n_n_0_1_132_wf : GatherDims.WF S500000x32 S2000000x1 S2000000x32 [1] [0] [] [0] [] 1 ![1, 32]
  scatter_S500000x32_S2000000x1_S2000000x32_1_0_0_1_wf : ScatterDims.WF S500000x32 S2000000x1 S2000000x32 [1] [0] [0] 1
  dot_S500000x32_S32x64_S500000x64_1_0_0_1_n_n_wf : DotDims.WF S500000x32 S32x64 S500000x64 [1] [0] [0] [1] [] []
  scatter_S256x1_S500000x1_S500000x1_1_0_0_1_wf : ScatterDims.WF S256x1 S500000x1 S500000x1 [1] [0] [0] 1
  scatter_S256x64_S500000x1_S500000x64_1_0_0_1_wf : ScatterDims.WF S256x64 S500000x1 S500000x64 [1] [0] [0] 1
  gather_S256x64_S500000x1_S500000x64_1_0_n_n_0_1_164_wf : GatherDims.WF S256x64 S500000x1 S500000x64 [1] [0] [] [0] [] 1 ![1, 64]
  gather_S500000x64_S2000000x1_S2000000x64_1_0_n_n_0_1_164_wf : GatherDims.WF S500000x64 S2000000x1 S2000000x64 [1] [0] [] [0] [] 1 ![1, 64]
  scatter_S500000x64_S2000000x1_S2000000x64_1_0_0_1_wf : ScatterDims.WF S500000x64 S2000000x1 S2000000x64 [1] [0] [0] 1
  dot_S500000x64_S64x64_S500000x64_1_0_0_1_n_n_wf : DotDims.WF S500000x64 S64x64 S500000x64 [1] [0] [0] [1] [] []

variable [Facts₀]

def gather_S500000x1_S2000000x1_S2000000x1_1_0_n_n_0_1_11 : GatherDims S500000x1 S2000000x1 S2000000x1 where
  offsetDims := [1]
  collapsedSliceDims := [0]
  operandBatchingDims := []
  startIndicesBatchingDims := []
  startIndexMap := [0]
  indexVectorDim := 1
  sliceSizes := ![1, 1]
  wf := gather_S500000x1_S2000000x1_S2000000x1_1_0_n_n_0_1_11_wf
def scatter_S500000x1_S2000000x1_S2000000x1_1_0_0_1 : ScatterDims S500000x1 S2000000x1 S2000000x1 where
  updateWindowDims := [1]
  insertedWindowDims := [0]
  scatterDimsToOperandDims := [0]
  indexVectorDim := 1
  wf := scatter_S500000x1_S2000000x1_S2000000x1_1_0_0_1_wf
def dot_S500000x1_S1x16_S500000x16_1_0_0_1_n_n : DotDims S500000x1 S1x16 S500000x16 where
  lhsContracting := [1]
  rhsContracting := [0]
  lhsNonContracting := [0]
  rhsNonContracting := [1]
  lhsBatch := []
  rhsBatch := []
  wf := dot_S500000x1_S1x16_S500000x16_1_0_0_1_n_n_wf
def gather_S500000x16_S2000000x1_S2000000x16_1_0_n_n_0_1_116 : GatherDims S500000x16 S2000000x1 S2000000x16 where
  offsetDims := [1]
  collapsedSliceDims := [0]
  operandBatchingDims := []
  startIndicesBatchingDims := []
  startIndexMap := [0]
  indexVectorDim := 1
  sliceSizes := ![1, 16]
  wf := gather_S500000x16_S2000000x1_S2000000x16_1_0_n_n_0_1_116_wf
def scatter_S500000x16_S2000000x1_S2000000x16_1_0_0_1 : ScatterDims S500000x16 S2000000x1 S2000000x16 where
  updateWindowDims := [1]
  insertedWindowDims := [0]
  scatterDimsToOperandDims := [0]
  indexVectorDim := 1
  wf := scatter_S500000x16_S2000000x1_S2000000x16_1_0_0_1_wf
def dot_S500000x16_S16x32_S500000x32_1_0_0_1_n_n : DotDims S500000x16 S16x32 S500000x32 where
  lhsContracting := [1]
  rhsContracting := [0]
  lhsNonContracting := [0]
  rhsNonContracting := [1]
  lhsBatch := []
  rhsBatch := []
  wf := dot_S500000x16_S16x32_S500000x32_1_0_0_1_n_n_wf
def gather_S500000x32_S2000000x1_S2000000x32_1_0_n_n_0_1_132 : GatherDims S500000x32 S2000000x1 S2000000x32 where
  offsetDims := [1]
  collapsedSliceDims := [0]
  operandBatchingDims := []
  startIndicesBatchingDims := []
  startIndexMap := [0]
  indexVectorDim := 1
  sliceSizes := ![1, 32]
  wf := gather_S500000x32_S2000000x1_S2000000x32_1_0_n_n_0_1_132_wf
def scatter_S500000x32_S2000000x1_S2000000x32_1_0_0_1 : ScatterDims S500000x32 S2000000x1 S2000000x32 where
  updateWindowDims := [1]
  insertedWindowDims := [0]
  scatterDimsToOperandDims := [0]
  indexVectorDim := 1
  wf := scatter_S500000x32_S2000000x1_S2000000x32_1_0_0_1_wf
def dot_S500000x32_S32x64_S500000x64_1_0_0_1_n_n : DotDims S500000x32 S32x64 S500000x64 where
  lhsContracting := [1]
  rhsContracting := [0]
  lhsNonContracting := [0]
  rhsNonContracting := [1]
  lhsBatch := []
  rhsBatch := []
  wf := dot_S500000x32_S32x64_S500000x64_1_0_0_1_n_n_wf
def scatter_S256x1_S500000x1_S500000x1_1_0_0_1 : ScatterDims S256x1 S500000x1 S500000x1 where
  updateWindowDims := [1]
  insertedWindowDims := [0]
  scatterDimsToOperandDims := [0]
  indexVectorDim := 1
  wf := scatter_S256x1_S500000x1_S500000x1_1_0_0_1_wf
def scatter_S256x64_S500000x1_S500000x64_1_0_0_1 : ScatterDims S256x64 S500000x1 S500000x64 where
  updateWindowDims := [1]
  insertedWindowDims := [0]
  scatterDimsToOperandDims := [0]
  indexVectorDim := 1
  wf := scatter_S256x64_S500000x1_S500000x64_1_0_0_1_wf
def gather_S256x64_S500000x1_S500000x64_1_0_n_n_0_1_164 : GatherDims S256x64 S500000x1 S500000x64 where
  offsetDims := [1]
  collapsedSliceDims := [0]
  operandBatchingDims := []
  startIndicesBatchingDims := []
  startIndexMap := [0]
  indexVectorDim := 1
  sliceSizes := ![1, 64]
  wf := gather_S256x64_S500000x1_S500000x64_1_0_n_n_0_1_164_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf

class Facts : Prop extends Facts₀ where

variable [Facts]
-- ==== Proof.KernelRun.lean ====
/-
  The idealized kernel's run with every buffer it leaves NAMED.

  @main is twelve segments: six stretches of host operations, each followed by one kernel region.  The contents of
  the TensorCore's buffers at each segment boundary are a fold from the launch memory: a stretch applies its
  operations' functions, a region leaves its output array at what its grid points wrote back and every other buffer
  as it found it.  Every weakly fair execution terminates, nothing faulting, with every unscoped buffer at the last
  boundary's contents — in particular the two result arrays, which is what the value claim needs.
-/
import proofs.«162785_j13211319403150_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped TensorCore buffer ends at the
    contents the fold through the twelve segments gives it. -/
theorem run_named : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W12 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c b hb => h c _ (mem_uc b hb))

end Cert.KernelIdeal.Named

end
-- ==== Proof.Carry.lean ====
/-
  What each segment of the kernel's @main leaves alone.

  A stretch of host operations changes only the buffers its operations write; a kernel region changes only its output
  array (an input array is read through its window and ends as it was found).  So a buffer keeps its contents across
  every segment that does not produce it: the arguments from the launch to the end, the edge endpoints and each
  layer's result from the segment that writes them on.
-/
import proofs.«162785_j13211319403150_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What the host stretches write -/

/-- The buffers stretch 0's operations write. -/
abbrev written0 : List (Ref sig .tc) := [main_v0, main_v1, main_v2, main_v3, main_c, main_v4, main_v5, main_c_0, main_v6, main_v7, main_v8, main_v9, main_v10, main_v11, main_v12, main_cst, main_v13, main_v14, main_v15, main_v16]
theorem hostOps0_writes : (hostOps0 : List (HloOp τ sig (Elt F))).Forall fun op => op.writes ⊆ (written0.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Stretch 0 keeps every buffer it does not write. -/
theorem W1_of (c : Dev nD) (r : Ref sig .tc) (h : r ∉ written0) : W1 m ρ c (Proc.devRef .tc r) = W0 m ρ c (Proc.devRef .tc r) :=
  StableHlo.after_of_writes_sub hostOps0 _ hostOps0_writes h

/-- The buffers stretch 1's operations write. -/
abbrev written1 : List (Ref sig .tc) := [main_c_1, main_v18, main_v19, main_c_2, main_v20, main_v21, main_v22, main_v23, main_v24, main_v25, main_v26, main_v27, main_cst_3, main_v28, main_v29, main_v30, main_v31]
theorem hostOps1_writes : (hostOps1 : List (HloOp τ sig (Elt F))).Forall fun op => op.writes ⊆ (written1.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Stretch 1 keeps every buffer it does not write. -/
theorem W3_of (c : Dev nD) (r : Ref sig .tc) (h : r ∉ written1) : W3 m ρ c (Proc.devRef .tc r) = W2 m ρ c (Proc.devRef .tc r) :=
  StableHlo.after_of_writes_sub hostOps1 _ hostOps1_writes h

/-- The buffers stretch 2's operations write. -/
abbrev written2 : List (Ref sig .tc) := [main_c_4, main_v33, main_v34, main_c_5, main_v35, main_v36, main_v37, main_v38, main_v39, main_v40, main_v41, main_v42, main_cst_6, main_v43, main_v44, main_v45, main_v46]
theorem hostOps2_writes : (hostOps2 : List (HloOp τ sig (Elt F))).Forall fun op => op.writes ⊆ (written2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Stretch 2 keeps every buffer it does not write. -/
theorem W5_of (c : Dev nD) (r : Ref sig .tc) (h : r ∉ written2) : W5 m ρ c (Proc.devRef .tc r) = W4 m ρ c (Proc.devRef .tc r) :=
  StableHlo.after_of_writes_sub hostOps2 _ hostOps2_writes h

/-- The buffers stretch 3's operations write. -/
abbrev written3 : List (Ref sig .tc) := [main_cst_7, main_v48, main_cst_8, main_v49, main_v50, main_v51, main_cst_9, main_v52, main_v53, main_v54, main_v55, main_v56, main_c_10, main_v57, main_v58, main_c_11, main_v59, main_v60, main_v61, main_v62, main_v63, main_v64, main_v65, main_v66, main_v67, main_v68, main_cst_12, main_v69, main_v70, main_v71, main_v72, main_v73, main_c_13, main_v74, main_v75, main_c_14, main_v76, main_v77, main_v78, main_v79, main_v80, main_v81, main_v82, main_v83]
theorem hostOps3_writes : (hostOps3 : List (HloOp τ sig (Elt F))).Forall fun op => op.writes ⊆ (written3.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Stretch 3 keeps every buffer it does not write. -/
theorem W7_of (c : Dev nD) (r : Ref sig .tc) (h : r ∉ written3) : W7 m ρ c (Proc.devRef .tc r) = W6 m ρ c (Proc.devRef .tc r) :=
  StableHlo.after_of_writes_sub hostOps3 _ hostOps3_writes h

/-- The buffers stretch 4's operations write. -/
abbrev written4 : List (Ref sig .tc) := [main_c_15, main_v85, main_v86, main_c_16, main_v87, main_v88, main_v89, main_v90, main_v91, main_v92, main_v93, main_v94, main_cst_17, main_v95, main_v96, main_v97, main_v98]
theorem hostOps4_writes : (hostOps4 : List (HloOp τ sig (Elt F))).Forall fun op => op.writes ⊆ (written4.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Stretch 4 keeps every buffer it does not write. -/
theorem W9_of (c : Dev nD) (r : Ref sig .tc) (h : r ∉ written4) : W9 m ρ c (Proc.devRef .tc r) = W8 m ρ c (Proc.devRef .tc r) :=
  StableHlo.after_of_writes_sub hostOps4 _ hostOps4_writes h

/-- The buffers stretch 5's operations write. -/
abbrev written5 : List (Ref sig .tc) := [main_c_18, main_v100, main_v101, main_c_19, main_v102, main_v103, main_v104, main_v105, main_v106, main_v107, main_v108, main_v109, main_cst_20, main_v110, main_v111, main_v112, main_v113]
theorem hostOps5_writes : (hostOps5 : List (HloOp τ sig (Elt F))).Forall fun op => op.writes ⊆ (written5.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- Stretch 5 keeps every buffer it does not write. -/
theorem W11_of (c : Dev nD) (r : Ref sig .tc) (h : r ∉ written5) : W11 m ρ c (Proc.devRef .tc r) = W10 m ρ c (Proc.devRef .tc r) :=
  StableHlo.after_of_writes_sub hostOps5 _ hostOps5_writes h

/-! ## What the regions write: their output array only -/

/-- Region 0 keeps every buffer but its output array. -/
theorem W2_keep (c : Dev nD) (r : Ref sig .tc) (h : r ≠ main_v17) : W2 m ρ c (Proc.devRef .tc r) = W1 m ρ c (Proc.devRef .tc r) := by
  by_cases h0 : r = main_v15
  · subst h0; exact (W2_arr m ρ c 0).trans (((dat0 (V1 m ρ) c).arrAt_in 0 rfl _).trans (A_eq0 (V1 m ρ) c 0))
  by_cases h1 : r = main_arg0
  · subst h1; exact (W2_arr m ρ c 1).trans (((dat0 (V1 m ρ) c).arrAt_in 1 rfl _).trans (A_eq0 (V1 m ρ) c 1))
  by_cases h2 : r = main_arg4
  · subst h2; exact (W2_arr m ρ c 2).trans (((dat0 (V1 m ρ) c).arrAt_in 2 rfl _).trans (A_eq0 (V1 m ρ) c 2))
  by_cases h3 : r = main_v16
  · subst h3; exact (W2_arr m ρ c 3).trans (((dat0 (V1 m ρ) c).arrAt_in 3 rfl _).trans (A_eq0 (V1 m ρ) c 3))
  by_cases h4 : r = main_arg6
  · subst h4; exact (W2_arr m ρ c 4).trans (((dat0 (V1 m ρ) c).arrAt_in 4 rfl _).trans (A_eq0 (V1 m ρ) c 4))
  exact W2_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h4 e.symm
    | ⟨5, _⟩ => exact fun e => h e.symm)

/-- Region 1 keeps every buffer but its output array. -/
theorem W4_keep (c : Dev nD) (r : Ref sig .tc) (h : r ≠ main_v32) : W4 m ρ c (Proc.devRef .tc r) = W3 m ρ c (Proc.devRef .tc r) := by
  by_cases h0 : r = main_v30
  · subst h0; exact (W4_arr m ρ c 0).trans (((dat1 (V3 m ρ) c).arrAt_in 0 rfl _).trans (A_eq1 (V3 m ρ) c 0))
  by_cases h1 : r = main_v17
  · subst h1; exact (W4_arr m ρ c 1).trans (((dat1 (V3 m ρ) c).arrAt_in 1 rfl _).trans (A_eq1 (V3 m ρ) c 1))
  by_cases h2 : r = main_arg7
  · subst h2; exact (W4_arr m ρ c 2).trans (((dat1 (V3 m ρ) c).arrAt_in 2 rfl _).trans (A_eq1 (V3 m ρ) c 2))
  by_cases h3 : r = main_v31
  · subst h3; exact (W4_arr m ρ c 3).trans (((dat1 (V3 m ρ) c).arrAt_in 3 rfl _).trans (A_eq1 (V3 m ρ) c 3))
  by_cases h4 : r = main_arg9
  · subst h4; exact (W4_arr m ρ c 4).trans (((dat1 (V3 m ρ) c).arrAt_in 4 rfl _).trans (A_eq1 (V3 m ρ) c 4))
  exact W4_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h4 e.symm
    | ⟨5, _⟩ => exact fun e => h e.symm)

/-- Region 2 keeps every buffer but its output array. -/
theorem W6_keep (c : Dev nD) (r : Ref sig .tc) (h : r ≠ main_v47) : W6 m ρ c (Proc.devRef .tc r) = W5 m ρ c (Proc.devRef .tc r) := by
  by_cases h0 : r = main_v45
  · subst h0; exact (W6_arr m ρ c 0).trans (((dat2 (V5 m ρ) c).arrAt_in 0 rfl _).trans (A_eq2 (V5 m ρ) c 0))
  by_cases h1 : r = main_v32
  · subst h1; exact (W6_arr m ρ c 1).trans (((dat2 (V5 m ρ) c).arrAt_in 1 rfl _).trans (A_eq2 (V5 m ρ) c 1))
  by_cases h2 : r = main_arg10
  · subst h2; exact (W6_arr m ρ c 2).trans (((dat2 (V5 m ρ) c).arrAt_in 2 rfl _).trans (A_eq2 (V5 m ρ) c 2))
  by_cases h3 : r = main_v46
  · subst h3; exact (W6_arr m ρ c 3).trans (((dat2 (V5 m ρ) c).arrAt_in 3 rfl _).trans (A_eq2 (V5 m ρ) c 3))
  by_cases h4 : r = main_arg12
  · subst h4; exact (W6_arr m ρ c 4).trans (((dat2 (V5 m ρ) c).arrAt_in 4 rfl _).trans (A_eq2 (V5 m ρ) c 4))
  exact W6_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h4 e.symm
    | ⟨5, _⟩ => exact fun e => h e.symm)

/-- Region 3 keeps every buffer but its output array. -/
theorem W8_keep (c : Dev nD) (r : Ref sig .tc) (h : r ≠ main_v84) : W8 m ρ c (Proc.devRef .tc r) = W7 m ρ c (Proc.devRef .tc r) := by
  by_cases h0 : r = main_v47
  · subst h0; exact (W8_arr m ρ c 0).trans (((dat3 (V7 m ρ) c).arrAt_in 0 rfl _).trans (A_eq3 (V7 m ρ) c 0))
  by_cases h1 : r = main_v63
  · subst h1; exact (W8_arr m ρ c 1).trans (((dat3 (V7 m ρ) c).arrAt_in 1 rfl _).trans (A_eq3 (V7 m ρ) c 1))
  by_cases h2 : r = main_v80
  · subst h2; exact (W8_arr m ρ c 2).trans (((dat3 (V7 m ρ) c).arrAt_in 2 rfl _).trans (A_eq3 (V7 m ρ) c 2))
  by_cases h3 : r = main_v81
  · subst h3; exact (W8_arr m ρ c 3).trans (((dat3 (V7 m ρ) c).arrAt_in 3 rfl _).trans (A_eq3 (V7 m ρ) c 3))
  by_cases h4 : r = main_v82
  · subst h4; exact (W8_arr m ρ c 4).trans (((dat3 (V7 m ρ) c).arrAt_in 4 rfl _).trans (A_eq3 (V7 m ρ) c 4))
  by_cases h5 : r = main_v83
  · subst h5; exact (W8_arr m ρ c 5).trans (((dat3 (V7 m ρ) c).arrAt_in 5 rfl _).trans (A_eq3 (V7 m ρ) c 5))
  exact W8_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h4 e.symm
    | ⟨5, _⟩ => exact fun e => h5 e.symm
    | ⟨6, _⟩ => exact fun e => h e.symm)

/-- Region 4 keeps every buffer but its output array. -/
theorem W10_keep (c : Dev nD) (r : Ref sig .tc) (h : r ≠ main_v99) : W10 m ρ c (Proc.devRef .tc r) = W9 m ρ c (Proc.devRef .tc r) := by
  by_cases h0 : r = main_v97
  · subst h0; exact (W10_arr m ρ c 0).trans (((dat4 (V9 m ρ) c).arrAt_in 0 rfl _).trans (A_eq4 (V9 m ρ) c 0))
  by_cases h1 : r = main_v84
  · subst h1; exact (W10_arr m ρ c 1).trans (((dat4 (V9 m ρ) c).arrAt_in 1 rfl _).trans (A_eq4 (V9 m ρ) c 1))
  by_cases h2 : r = main_arg13
  · subst h2; exact (W10_arr m ρ c 2).trans (((dat4 (V9 m ρ) c).arrAt_in 2 rfl _).trans (A_eq4 (V9 m ρ) c 2))
  by_cases h3 : r = main_v98
  · subst h3; exact (W10_arr m ρ c 3).trans (((dat4 (V9 m ρ) c).arrAt_in 3 rfl _).trans (A_eq4 (V9 m ρ) c 3))
  by_cases h4 : r = main_arg15
  · subst h4; exact (W10_arr m ρ c 4).trans (((dat4 (V9 m ρ) c).arrAt_in 4 rfl _).trans (A_eq4 (V9 m ρ) c 4))
  exact W10_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h4 e.symm
    | ⟨5, _⟩ => exact fun e => h e.symm)

/-- Region 5 keeps every buffer but its output array. -/
theorem W12_keep (c : Dev nD) (r : Ref sig .tc) (h : r ≠ main_v114) : W12 m ρ c (Proc.devRef .tc r) = W11 m ρ c (Proc.devRef .tc r) := by
  by_cases h0 : r = main_v112
  · subst h0; exact (W12_arr m ρ c 0).trans (((dat5 (V11 m ρ) c).arrAt_in 0 rfl _).trans (A_eq5 (V11 m ρ) c 0))
  by_cases h1 : r = main_v84
  · subst h1; exact (W12_arr m ρ c 1).trans (((dat5 (V11 m ρ) c).arrAt_in 1 rfl _).trans (A_eq5 (V11 m ρ) c 1))
  by_cases h2 : r = main_arg16
  · subst h2; exact (W12_arr m ρ c 2).trans (((dat5 (V11 m ρ) c).arrAt_in 2 rfl _).trans (A_eq5 (V11 m ρ) c 2))
  by_cases h3 : r = main_v113
  · subst h3; exact (W12_arr m ρ c 3).trans (((dat5 (V11 m ρ) c).arrAt_in 3 rfl _).trans (A_eq5 (V11 m ρ) c 3))
  by_cases h4 : r = main_arg18
  · subst h4; exact (W12_arr m ρ c 4).trans (((dat5 (V11 m ρ) c).arrAt_in 4 rfl _).trans (A_eq5 (V11 m ρ) c 4))
  exact W12_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h4 e.symm
    | ⟨5, _⟩ => exact fun e => h e.symm)

/-! ## The arguments, read back at every boundary -/

/-- @main's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

theorem arg_fresh : ∀ r ∈ argRefs, r ∉ written0 ∧ r ∉ written1 ∧ r ∉ written2 ∧ r ∉ written3 ∧ r ∉ written4 ∧ r ∉ written5
    ∧ r ≠ main_v17 ∧ r ≠ main_v32 ∧ r ≠ main_v47 ∧ r ≠ main_v84 ∧ r ≠ main_v99 ∧ r ≠ main_v114 := by decide

theorem W1_arg (c : Dev nD) (r : Ref sig .tc) (hr : r ∈ argRefs) : W1 m ρ c (Proc.devRef .tc r) = m ((c : Thread nD τ).loc r) :=
  W1_of m ρ c r (arg_fresh r hr).1
theorem W2_arg (c : Dev nD) (r : Ref sig .tc) (hr : r ∈ argRefs) : W2 m ρ c (Proc.devRef .tc r) = m ((c : Thread nD τ).loc r) :=
  (W2_keep m ρ c r (arg_fresh r hr).2.2.2.2.2.2.1).trans (W1_arg m ρ c r hr)
theorem W3_arg (c : Dev nD) (r : Ref sig .tc) (hr : r ∈ argRefs) : W3 m ρ c (Proc.devRef .tc r) = m ((c : Thread nD τ).loc r) :=
  (W3_of m ρ c r (arg_fresh r hr).2.1).trans (W2_arg m ρ c r hr)
theorem W4_arg (c : Dev nD) (r : Ref sig .tc) (hr : r ∈ argRefs) : W4 m ρ c (Proc.devRef .tc r) = m ((c : Thread nD τ).loc r) :=
  (W4_keep m ρ c r (arg_fresh r hr).2.2.2.2.2.2.2.1).trans (W3_arg m ρ c r hr)
theorem W5_arg (c : Dev nD) (r : Ref sig .tc) (hr : r ∈ argRefs) : W5 m ρ c (Proc.devRef .tc r) = m ((c : Thread nD τ).loc r) :=
  (W5_of m ρ c r (arg_fresh r hr).2.2.1).trans (W4_arg m ρ c r hr)
theorem W6_arg (c : Dev nD) (r : Ref sig .tc) (hr : r ∈ argRefs) : W6 m ρ c (Proc.devRef .tc r) = m ((c : Thread nD τ).loc r) :=
  (W6_keep m ρ c r (arg_fresh r hr).2.2.2.2.2.2.2.2.1).trans (W5_arg m ρ c r hr)
theorem W7_arg (c : Dev nD) (r : Ref sig .tc) (hr : r ∈ argRefs) : W7 m ρ c (Proc.devRef .tc r) = m ((c : Thread nD τ).loc r) :=
  (W7_of m ρ c r (arg_fresh r hr).2.2.2.1).trans (W6_arg m ρ c r hr)
theorem W8_arg (c : Dev nD) (r : Ref sig .tc) (hr : r ∈ argRefs) : W8 m ρ c (Proc.devRef .tc r) = m ((c : Thread nD τ).loc r) :=
  (W8_keep m ρ c r (arg_fresh r hr).2.2.2.2.2.2.2.2.2.1).trans (W7_arg m ρ c r hr)
theorem W9_arg (c : Dev nD) (r : Ref sig .tc) (hr : r ∈ argRefs) : W9 m ρ c (Proc.devRef .tc r) = m ((c : Thread nD τ).loc r) :=
  (W9_of m ρ c r (arg_fresh r hr).2.2.2.2.1).trans (W8_arg m ρ c r hr)
theorem W10_arg (c : Dev nD) (r : Ref sig .tc) (hr : r ∈ argRefs) : W10 m ρ c (Proc.devRef .tc r) = m ((c : Thread nD τ).loc r) :=
  (W10_keep m ρ c r (arg_fresh r hr).2.2.2.2.2.2.2.2.2.2.1).trans (W9_arg m ρ c r hr)
theorem W11_arg (c : Dev nD) (r : Ref sig .tc) (hr : r ∈ argRefs) : W11 m ρ c (Proc.devRef .tc r) = m ((c : Thread nD τ).loc r) :=
  (W11_of m ρ c r (arg_fresh r hr).2.2.2.2.2.1).trans (W10_arg m ρ c r hr)
theorem W12_arg (c : Dev nD) (r : Ref sig .tc) (hr : r ∈ argRefs) : W12 m ρ c (Proc.devRef .tc r) = m ((c : Thread nD τ).loc r) :=
  (W12_keep m ρ c r (arg_fresh r hr).2.2.2.2.2.2.2.2.2.2.2).trans (W11_arg m ρ c r hr)

/-! ## The edge endpoints (written by the first stretch), read back at every later boundary -/

/-- The two edge-endpoint arrays. -/
abbrev edgeRefs : List (Ref sig .tc) := [main_v1, main_v3]

theorem edge_fresh : ∀ r ∈ edgeRefs, r ∉ written1 ∧ r ∉ written2 ∧ r ∉ written3 ∧ r ∉ written4 ∧ r ∉ written5
    ∧ r ≠ main_v17 ∧ r ≠ main_v32 ∧ r ≠ main_v47 ∧ r ≠ main_v84 ∧ r ≠ main_v99 ∧ r ≠ main_v114 := by decide

theorem W2_edge (c : Dev nD) (r : Ref sig .tc) (hr : r ∈ edgeRefs) : W2 m ρ c (Proc.devRef .tc r) = W1 m ρ c (Proc.devRef .tc r) :=
  W2_keep m ρ c r (edge_fresh r hr).2.2.2.2.2.1
theorem W3_edge (c : Dev nD) (r : Ref sig .tc) (hr : r ∈ edgeRefs) : W3 m ρ c (Proc.devRef .tc r) = W1 m ρ c (Proc.devRef .tc r) :=
  (W3_of m ρ c r (edge_fresh r hr).1).trans (W2_edge m ρ c r hr)
theorem W4_edge (c : Dev nD) (r : Ref sig .tc) (hr : r ∈ edgeRefs) : W4 m ρ c (Proc.devRef .tc r) = W1 m ρ c (Proc.devRef .tc r) :=
  (W4_keep m ρ c r (edge_fresh r hr).2.2.2.2.2.2.1).trans (W3_edge m ρ c r hr)
theorem W5_edge (c : Dev nD) (r : Ref sig .tc) (hr : r ∈ edgeRefs) : W5 m ρ c (Proc.devRef .tc r) = W1 m ρ c (Proc.devRef .tc r) :=
  (W5_of m ρ c r (edge_fresh r hr).2.1).trans (W4_edge m ρ c r hr)
theorem W6_edge (c : Dev nD) (r : Ref sig .tc) (hr : r ∈ edgeRefs) : W6 m ρ c (Proc.devRef .tc r) = W1 m ρ c (Proc.devRef .tc r) :=
  (W6_keep m ρ c r (edge_fresh r hr).2.2.2.2.2.2.2.1).trans (W5_edge m ρ c r hr)
theorem W7_edge (c : Dev nD) (r : Ref sig .tc) (hr : r ∈ edgeRefs) : W7 m ρ c (Proc.devRef .tc r) = W1 m ρ c (Proc.devRef .tc r) :=
  (W7_of m ρ c r (edge_fresh r hr).2.2.1).trans (W6_edge m ρ c r hr)
theorem W8_edge (c : Dev nD) (r : Ref sig .tc) (hr : r ∈ edgeRefs) : W8 m ρ c (Proc.devRef .tc r) = W1 m ρ c (Proc.devRef .tc r) :=
  (W8_keep m ρ c r (edge_fresh r hr).2.2.2.2.2.2.2.2.1).trans (W7_edge m ρ c r hr)
theorem W9_edge (c : Dev nD) (r : Ref sig .tc) (hr : r ∈ edgeRefs) : W9 m ρ c (Proc.devRef .tc r) = W1 m ρ c (Proc.devRef .tc r) :=
  (W9_of m ρ c r (edge_fresh r hr).2.2.2.1).trans (W8_edge m ρ c r hr)
theorem W10_edge (c : Dev nD) (r : Ref sig .tc) (hr : r ∈ edgeRefs) : W10 m ρ c (Proc.devRef .tc r) = W1 m ρ c (Proc.devRef .tc r) :=
  (W10_keep m ρ c r (edge_fresh r hr).2.2.2.2.2.2.2.2.2.1).trans (W9_edge m ρ c r hr)

end Cert.KernelIdeal.Carry

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«162785_j13211319403150_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.DenseSpec.lean ====
/-
  One layer's dense stage and the normalisation stage, as functions of whole arrays, index by index.

  The dense stage of a graph-convolution layer takes the aggregated messages `agg` and the node features `x`
  (both rows × K), two weight matrices (K × N) and a bias row (1 × N), and gives, at row r and column q,
      (agg · w_rel)(r, q) + bias(0, q) + (x · w_root)(r, q),
  optionally clamped below at zero.  A kernel that computes it for a block of rows, with the whole weight
  matrices and the whole bias row, computes at the block's local row p exactly the whole array's entry at the
  row r that p is: each matrix product depends on row r of its left operand only, and the bias on the column only.
  No algebraic law is used — both sides are the same tree of exact operations.

  The normalisation stage is pointwise: at (r, q) it is
      w(0, q) · (h(r, q) − mean(r, q) · scale(0, q)) · rsqrt(var(r, q) + ε) + b(0, q).
-/
import proofs.«162785_j13211319403150_1_alg».proof.Proof.LibRowBlocks
import Idealize.ShloMosaic.Lib.ValueLayout
import Idealize.ShloMosaic.Lib.Pipeline.Value
import Idealize.ShloMosaic.PureOps.Ideal

noncomputable section

namespace Cert.GraphEnc

open Idealize.ShloMosaic Idealize.ShloMosaic.ValueIdx Cert.Lib.RowBlocks

variable {B M K N : Nat}

/-- The dense stage of a layer over whole arrays: products with the two weight matrices, the bias row added between them. -/
def dense (agg x : FVec Ideal ⟨2, ![M, K]⟩ .f32) (wrel : FVec Ideal ⟨2, ![K, N]⟩ .f32) (bias : FVec Ideal ⟨2, ![1, N]⟩ .f32)
    (wroot : FVec Ideal ⟨2, ![K, N]⟩ .f32) : FVec Ideal ⟨2, ![M, N]⟩ .f32 := fun i =>
  FloatOps.addf (FloatOps.addf (Host.dotGeneral (DotDims.plain M K N) none agg wrel i) (bias (ix2 (0 : Fin 1) (i 1))))
    (Host.dotGeneral (DotDims.plain M K N) none x wroot i)

/-- The dense stage followed by the clamp at zero. -/
def denseRelu (agg x : FVec Ideal ⟨2, ![M, K]⟩ .f32) (wrel : FVec Ideal ⟨2, ![K, N]⟩ .f32) (bias : FVec Ideal ⟨2, ![1, N]⟩ .f32)
    (wroot : FVec Ideal ⟨2, ![K, N]⟩ .f32) : FVec Ideal ⟨2, ![M, N]⟩ .f32 := fun i =>
  FloatOps.maximumf (dense agg x wrel bias wroot i) (FloatOps.ofBits .f32 0x00000000#32)

/-- A block of B rows through the dense stage's operations — two products on the matrix unit into zero accumulators,
    the bias row broadcast over the block's rows — read at the local index (p, q), is the whole arrays' dense stage at
    (r, q), when the block's row p is row r of both whole left operands. -/
theorem dense_block_apply (aggb xb : FVec Ideal ⟨2, ![B, K]⟩ .f32) (wrel : FVec Ideal ⟨2, ![K, N]⟩ .f32)
    (bias : FVec Ideal ⟨2, ![1, N]⟩ .f32) (wroot : FVec Ideal ⟨2, ![K, N]⟩ .f32)
    (hb : (⟨2, ![1, N]⟩ : Shape).Broadcasts ⟨2, ![B, N]⟩)
    (agg x : FVec Ideal ⟨2, ![M, K]⟩ .f32) (p : Fin B) (r : Fin M) (q : Fin N)
    (hagg : ∀ k : Fin K, (aggb (ix2 p k) : EReal) = agg (ix2 r k)) (hx : ∀ k : Fin K, (xb (ix2 p k) : EReal) = x (ix2 r k)) :
    FloatOps.addf (FloatOps.addf
        (matmul (DotDims.plain B K N) none aggb wrel (constant (F := Ideal) ⟨2, ![B, N]⟩ .f32 0x00000000#32) (ix2 p q))
        (broadcastTo ⟨2, ![B, N]⟩ bias hb (ix2 p q)))
      (matmul (DotDims.plain B K N) none xb wroot (constant (F := Ideal) ⟨2, ![B, N]⟩ .f32 0x00000000#32) (ix2 p q))
    = dense agg x wrel bias wroot (ix2 r q) := by
  rw [matmul_rows_eq_dotGeneral none none agg wrel aggb wrel p r q hagg (fun _ => rfl),
    matmul_rows_eq_dotGeneral none none x wroot xb wroot p r q hx (fun _ => rfl),
    broadcastTo_1b_ab_apply]
  rfl

/-- The normalisation stage over whole arrays, pointwise; `eps` is the word of the small constant added under the root. -/
def norm (eps : BitVec 32) (h mean var : FVec Ideal ⟨2, ![M, N]⟩ .f32) (w b scale : FVec Ideal ⟨2, ![1, N]⟩ .f32) :
    FVec Ideal ⟨2, ![M, N]⟩ .f32 := fun i =>
  FloatOps.addf
    (FloatOps.mulf (FloatOps.mulf (w (ix2 (0 : Fin 1) (i 1))) (FloatOps.subf (h i) (FloatOps.mulf (mean i) (scale (ix2 (0 : Fin 1) (i 1))))))
      (FloatOps.rsqrt (FloatOps.addf (var i) (FloatOps.ofBits .f32 eps))))
    (b (ix2 (0 : Fin 1) (i 1)))

/-- A block of B rows through the normalisation's operations, read at the local index (p, q), is the whole arrays'
    normalisation at (r, q), when the block's entries at (p, q) are the whole arrays' at (r, q). -/
theorem norm_block_apply (eps : BitVec 32) (hb' meanb varb : FVec Ideal ⟨2, ![B, N]⟩ .f32) (w b scale : FVec Ideal ⟨2, ![1, N]⟩ .f32)
    (hbc : (⟨2, ![1, N]⟩ : Shape).Broadcasts ⟨2, ![B, N]⟩)
    (h mean var : FVec Ideal ⟨2, ![M, N]⟩ .f32) (p : Fin B) (r : Fin M) (q : Fin N)
    (e1 : (hb' (ix2 p q) : EReal) = h (ix2 r q)) (e2 : (meanb (ix2 p q) : EReal) = mean (ix2 r q)) (e3 : (varb (ix2 p q) : EReal) = var (ix2 r q)) :
    FloatOps.addf
      (FloatOps.mulf (FloatOps.mulf (broadcastTo ⟨2, ![B, N]⟩ w hbc (ix2 p q))
          (FloatOps.subf (hb' (ix2 p q)) (FloatOps.mulf (meanb (ix2 p q)) (broadcastTo ⟨2, ![B, N]⟩ scale hbc (ix2 p q)))))
        (FloatOps.rsqrt (FloatOps.addf (varb (ix2 p q)) (FloatOps.ofBits .f32 eps))))
      (broadcastTo ⟨2, ![B, N]⟩ b hbc (ix2 p q))
    = norm eps h mean var w b scale (ix2 r q) := by
  rw [broadcastTo_1b_ab_apply, broadcastTo_1b_ab_apply, broadcastTo_1b_ab_apply, e1, e2, e3]
  rfl

end Cert.GraphEnc

end
-- ==== Proof.Region0.lean ====
/-
  Region 0 of the kernel: the dense stage of a graph-convolution layer (1 → 16 channels, clamped at zero), computed by
  blocks of 10000 rows over a grid of 50 points.

  At grid point t the body loads rows 10000·t … 10000·t + 9999 of the aggregated messages and of the node features, the
  whole weight matrices and the whole bias row, and stores the block's dense stage; point t writes it back to rows
  10000·t … of the output array.  The 50 blocks tile the 500000 rows, so after the region the output array IS the
  dense stage of the whole arrays the region found, whatever they are.
-/
import proofs.«162785_j13211319403150_1_alg».proof.Proof.Gen.KernelIdeal.Frame
import proofs.«162785_j13211319403150_1_alg».proof.Proof.DenseSpec
import Idealize.ShloMosaic.Lib.Pipeline.Value
import Idealize.ShloMosaic.Lib.ValueIdx

set_option maxRecDepth 16384

noncomputable section

namespace Cert.KernelIdeal.Layer0

open Cert.KernelIdeal Cert.KernelIdeal.Gen Cert.GraphEnc
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at the block's local index (p, q) is the whole arrays' dense stage at (r, q), when the
    block's row p of both left operands is row r of the whole ones. -/
theorem pay_apply (x0 : Vec Ideal S10000x1 .f32) (x2 : Vec Ideal S1x16 .f32) (x4 : Vec Ideal S10000x1 .f32) (xr : Vec Ideal S1x16 .f32)
    (xb : Vec Ideal S1x16 .f32) (agg x : FVec Ideal S500000x1 .f32) (p : Fin 10000) (r : Fin 500000) (q : Fin 16)
    (hagg : ∀ k : Fin 1, (x0 (ix2 p k) : EReal) = agg (ix2 r k)) (hx : ∀ k : Fin 1, (x4 (ix2 p k) : EReal) = x (ix2 r k)) :
    k0_pay1 (F := Ideal) x0 x2 x4 xr xb (ix2 p q) = denseRelu agg x x2 xb xr (ix2 r q) := by
  unfold k0_pay1
  simp only [shapeCast_self]
  show FloatOps.maximumf (FloatOps.addf (FloatOps.addf
          (matmul (DotDims.plain 10000 1 16) none x0 x2 (constant (F := Ideal) ⟨2, ![10000, 16]⟩ .f32 0x00000000#32) (ix2 p q))
          (broadcastTo ⟨2, ![10000, 16]⟩ xb broadcasts_S1x16_S10000x16 (ix2 p q)))
        (matmul (DotDims.plain 10000 1 16) none x4 xr (constant (F := Ideal) ⟨2, ![10000, 16]⟩ .f32 0x00000000#32) (ix2 p q)))
      (FloatOps.ofBits .f32 0x00000000#32) = _
  unfold denseRelu
  rw [dense_block_apply x0 x4 x2 xb xr broadcasts_S1x16_S10000x16 agg x p r q hagg hx]

/-- The printed index maps, decided over the grid: the row-blocked windows sit at block row t, the whole-array windows at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 50 :=
  (by decide +kernel : ∀ t : Fin grid0.N, _)

/-- Every block row is some point's. -/
theorem idx_onto : ∀ q0 : Fin 50, ∃ t : Fin cfg0.N, t.val = q0.val :=
  (by decide +kernel : ∀ q0 : Fin 50, ∃ t : Fin grid0.N, t.val = q0.val)

/-- A window holding a whole array at block (0, 0) stages the array itself. -/
theorem whole2 (c : Dev nD) (t : Fin cfg0.N) : iblk0 V c 2 t = V c main_arg4 := by
  obtain ⟨-, -, -, -, e0, e1, -⟩ := idx_facts t
  funext y
  show V c main_arg4 (((cfg0.win 2).blk t).view.emb y) = V c main_arg4 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 16 + 1 * (y 1).val = (y 1).val; omega
theorem whole3 (c : Dev nD) (t : Fin cfg0.N) : iblk0 V c 3 t = V c main_v16 := by
  obtain ⟨-, -, -, -, -, -, e0, e1, -⟩ := idx_facts t
  funext y
  show V c main_v16 (((cfg0.win 3).blk t).view.emb y) = V c main_v16 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 16 + 1 * (y 1).val = (y 1).val; omega
theorem whole4 (c : Dev nD) (t : Fin cfg0.N) : iblk0 V c 4 t = V c main_arg6 := by
  obtain ⟨-, -, -, -, -, -, -, -, e0, e1, -⟩ := idx_facts t
  funext y
  show V c main_arg6 (((cfg0.win 4).blk t).view.emb y) = V c main_arg6 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 16 + 1 * (y 1).val = (y 1).val; omega

/-- What the whole arrays' dense stage is, as the region finds them. -/
abbrev G (c : Dev nD) : S500000x16.Idx → EReal := denseRelu (V c main_v15) (V c main_arg0) (V c main_arg4) (V c main_v16) (V c main_arg6)

/-- WHAT POINT t WRITES BACK is block t of the dense stage of the arrays the region found. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S10000x1) hz, View.ld_unit_zero (S := S1x16) hz, View.ld_unit_zero (S := S1x16) hz]
  rw [whole2 V c t, whole3 V c t, whole4 V c t]
  obtain ⟨a0, a1, b0, b1, -, -, -, -, -, -, o0, o1, ht⟩ := idx_facts t
  funext j
  obtain ⟨p, q, rfl⟩ : ∃ (p : Fin 10000) (q : Fin 16), j = ix2 p q := ⟨j 0, j 1, eq_ix2 j⟩
  have hp : p.val < 10000 := p.isLt
  have hemb : ((cfg0.win 5).blk t).view.emb (ix2 p q) = ix2 (⟨t.val * 10000 + p.val, by omega⟩ : Fin 500000) q := by
    funext a; apply Fin.ext
    match a with
    | ⟨0, _⟩ => show win0_5.index t (0 : Fin 2) * 10000 + 1 * p.val = t.val * 10000 + p.val; omega
    | ⟨1, _⟩ => show win0_5.index t (1 : Fin 2) * 16 + 1 * q.val = q.val; omega
  show k0_pay1 (F := Ideal) (iblk0 V c 0 t) (V c main_arg4) (iblk0 V c 1 t) (V c main_arg6) (V c main_v16) (ix2 p q)
    = G V c (((cfg0.win 5).blk t).view.emb (ix2 p q))
  rw [hemb]
  refine pay_apply (iblk0 V c 0 t) (V c main_arg4) (iblk0 V c 1 t) (V c main_arg6) (V c main_v16) (V c main_v15) (V c main_arg0) p _ q ?_ ?_
  · intro k
    show V c main_v15 (((cfg0.win 0).blk t).view.emb (ix2 p k)) = V c main_v15 (ix2 _ k)
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 1 + 1 * k.val = k.val; omega
  · intro k
    show V c main_arg0 (((cfg0.win 1).blk t).view.emb (ix2 p k)) = V c main_arg0 (ix2 _ k)
    refine congrArg _ (funext fun a => Fin.ext ?_)
    match a with
    | ⟨0, _⟩ => show win0_1.index t (0 : Fin 2) * 10000 + 1 * p.val = t.val * 10000 + p.val; omega
    | ⟨1, _⟩ => show win0_1.index t (1 : Fin 2) * 1 + 1 * k.val = k.val; omega

/-- An index of the output array is in point t's block iff each coordinate is in the block's range on its axis. -/
theorem mem_blk (t : Fin cfg0.N) (i : S500000x16.Idx) :
    i ∈ ((cfg0.win 5).blk t).view.set ↔ ∀ a : Fin 2, win0_5.index t a * S10000x16.size a ≤ (i a).val ∧ (i a).val < win0_5.index t a * S10000x16.size a + S10000x16.size a := by
  show i ∈ ((View.whole main_v17).slice (win0_5.rect t)).set ↔ _
  rw [View.set_slice_whole, Rect.mem_set_unit]
  exact Iff.rfl

/-- THE COVER: row r of the output array is in the block of point r / 10000. -/
theorem cover (i : S500000x16.Idx) : ∃ t : Fin cfg0.N, (cfg0.win 5).flush t = true ∧ i ∈ ((cfg0.win 5).blk t).view.set := by
  have hi0 : (i 0).val < 500000 := (i 0).isLt
  have hi1 : (i 1).val < 16 := (i 1).isLt
  obtain ⟨t, ht⟩ := idx_onto ⟨(i 0).val / 10000, by omega⟩
  have ht' : t.val = (i 0).val / 10000 := ht
  obtain ⟨-, -, -, -, -, -, -, -, -, -, o0, o1, -⟩ := idx_facts t
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 16 ≤ (i 1).val ∧ (i 1).val < win0_5.index t (1 : Fin 2) * 16 + 16; omega

/-- THE OUTPUT ARRAY after the region: the dense stage of the arrays the region found. -/
theorem final (c : Dev nD) : (dat0 V c).arrAt 5 cfg0.N = G V c :=
  (dat0 V c).arrAt_eq_of_cover 5 (G V c) (fun t _ => flushed_eq V c t) cover

end Cert.KernelIdeal.Layer0

end
-- ==== Proof.Region1.lean ====
/-
  Region 1 of the kernel: the dense stage of a graph-convolution layer (16 → 32 channels, clamped at zero), computed by
  blocks of 10000 rows over a grid of 50 points.

  At grid point t the body loads rows 10000·t … 10000·t + 9999 of the aggregated messages and of the node features, the
  whole weight matrices and the whole bias row, and stores the block's dense stage; point t writes it back to rows
  10000·t … of the output array.  The 50 blocks tile the 500000 rows, so after the region the output array IS the
  dense stage of the whole arrays the region found, whatever they are.
-/
import proofs.«162785_j13211319403150_1_alg».proof.Proof.Gen.KernelIdeal.Frame
import proofs.«162785_j13211319403150_1_alg».proof.Proof.DenseSpec
import Idealize.ShloMosaic.Lib.Pipeline.Value
import Idealize.ShloMosaic.Lib.ValueIdx

set_option maxRecDepth 16384

noncomputable section

namespace Cert.KernelIdeal.Layer1

open Cert.KernelIdeal Cert.KernelIdeal.Gen Cert.GraphEnc
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at the block's local index (p, q) is the whole arrays' dense stage at (r, q), when the
    block's row p of both left operands is row r of the whole ones. -/
theorem pay_apply (x0 : Vec Ideal S10000x16 .f32) (x2 : Vec Ideal S16x32 .f32) (x4 : Vec Ideal S10000x16 .f32) (xr : Vec Ideal S16x32 .f32)
    (xb : Vec Ideal S1x32 .f32) (agg x : FVec Ideal S500000x16 .f32) (p : Fin 10000) (r : Fin 500000) (q : Fin 32)
    (hagg : ∀ k : Fin 16, (x0 (ix2 p k) : EReal) = agg (ix2 r k)) (hx : ∀ k : Fin 16, (x4 (ix2 p k) : EReal) = x (ix2 r k)) :
    k1_pay1 (F := Ideal) x0 x2 x4 xr xb (ix2 p q) = denseRelu agg x x2 xb xr (ix2 r q) := by
  unfold k1_pay1
  simp only [shapeCast_self]
  show FloatOps.maximumf (FloatOps.addf (FloatOps.addf
          (matmul (DotDims.plain 10000 16 32) none x0 x2 (constant (F := Ideal) ⟨2, ![10000, 32]⟩ .f32 0x00000000#32) (ix2 p q))
          (broadcastTo ⟨2, ![10000, 32]⟩ xb broadcasts_S1x32_S10000x32 (ix2 p q)))
        (matmul (DotDims.plain 10000 16 32) none x4 xr (constant (F := Ideal) ⟨2, ![10000, 32]⟩ .f32 0x00000000#32) (ix2 p q)))
      (FloatOps.ofBits .f32 0x00000000#32) = _
  unfold denseRelu
  rw [dense_block_apply x0 x4 x2 xb xr broadcasts_S1x32_S10000x32 agg x p r q hagg hx]

/-- The printed index maps, decided over the grid: the row-blocked windows sit at block row t, the whole-array windows at
    block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 50 :=
  (by decide +kernel : ∀ t : Fin grid1.N, _)

/-- Every block row is some point's. -/
theorem idx_onto : ∀ q0 : Fin 50, ∃ t : Fin cfg1.N, t.val = q0.val :=
  (by decide +kernel : ∀ q0 : Fin 50, ∃ t : Fin grid1.N, t.val = q0.val)

/-- A window holding a whole array at block (0, 0) stages the array itself. -/
theorem whole2 (c : Dev nD) (t : Fin cfg1.N) : iblk1 V c 2 t = V c main_arg7 := by
  obtain ⟨-, -, -, -, e0, e1, -⟩ := idx_facts t
  funext y
  show V c main_arg7 (((cfg1.win 2).blk t).view.emb y) = V c main_arg7 y
  refine congrArg _ (funext fun a => Fin.ext ?_)
  match a with
  | ⟨0, _⟩ => show win1_2.index t (0 : Fin 2) * 16 + 1 * (y 0).val = (y 0).val; omega
  | ⟨1, _⟩ => show win1_2.index t (1 : Fin 2) * 32 + 1 * (y 1).val = (y 1).val; omega
theorem whole3 (c : Dev nD) (t : Fin cfg1.N) : iblk1 V c 3 t = V c main_v31 := by
  obtain ⟨-, -, -, -, -, -, e0, e1, -⟩ := idx_facts t
  funext y
  show V c main_v31 (((cfg1.win 3).blk t).view.emb y) = V c main_v31 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 32 + 1 * (y 1).val = (y 1).val; omega
theorem whole4 (c : Dev nD) (t : Fin cfg1.N) : iblk1 V c 4 t = V c main_arg9 := by
  obtain ⟨-, -, -, -, -, -, -, -, e0, e1, -⟩ := idx_facts t
  funext y
  show V c main_arg9 (((cfg1.win 4).blk t).view.emb y) = V c main_arg9 y
  refine congrArg _ (funext fun a => Fin.ext ?_)
  match a with
  | ⟨0, _⟩ => show win1_4.index t (0 : Fin 2) * 16 + 1 * (y 0).val = (y 0).val; omega
  | ⟨1, _⟩ => show win1_4.index t (1 : Fin 2) * 32 + 1 * (y 1).val = (y 1).val; omega

/-- What the whole arrays' dense stage is, as the region finds them. -/
abbrev G (c : Dev nD) : S500000x32.Idx → EReal := denseRelu (V c main_v30) (V c main_v17) (V c main_arg7) (V c main_v31) (V c main_arg9)

/-- WHAT POINT t WRITES BACK is block t of the dense stage of the arrays the region found. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S10000x16) hz, View.ld_unit_zero (S := S16x32) hz, View.ld_unit_zero (S := S1x32) hz]
  rw [whole2 V c t, whole3 V c t, whole4 V c t]
  obtain ⟨a0, a1, b0, b1, -, -, -, -, -, -, o0, o1, ht⟩ := idx_facts t
  funext j
  obtain ⟨p, q, rfl⟩ : ∃ (p : Fin 10000) (q : Fin 32), j = ix2 p q := ⟨j 0, j 1, eq_ix2 j⟩
  have hp : p.val < 10000 := p.isLt
  have hemb : ((cfg1.win 5).blk t).view.emb (ix2 p q) = ix2 (⟨t.val * 10000 + p.val, by omega⟩ : Fin 500000) q := by
    funext a; apply Fin.ext
    match a with
    | ⟨0, _⟩ => show win1_5.index t (0 : Fin 2) * 10000 + 1 * p.val = t.val * 10000 + p.val; omega
    | ⟨1, _⟩ => show win1_5.index t (1 : Fin 2) * 32 + 1 * q.val = q.val; omega
  show k1_pay1 (F := Ideal) (iblk1 V c 0 t) (V c main_arg7) (iblk1 V c 1 t) (V c main_arg9) (V c main_v31) (ix2 p q)
    = G V c (((cfg1.win 5).blk t).view.emb (ix2 p q))
  rw [hemb]
  refine pay_apply (iblk1 V c 0 t) (V c main_arg7) (iblk1 V c 1 t) (V c main_arg9) (V c main_v31) (V c main_v30) (V c main_v17) p _ q ?_ ?_
  · intro k
    show V c main_v30 (((cfg1.win 0).blk t).view.emb (ix2 p k)) = V c main_v30 (ix2 _ k)
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 16 + 1 * k.val = k.val; omega
  · intro k
    show V c main_v17 (((cfg1.win 1).blk t).view.emb (ix2 p k)) = V c main_v17 (ix2 _ k)
    refine congrArg _ (funext fun a => Fin.ext ?_)
    match a with
    | ⟨0, _⟩ => show win1_1.index t (0 : Fin 2) * 10000 + 1 * p.val = t.val * 10000 + p.val; omega
    | ⟨1, _⟩ => show win1_1.index t (1 : Fin 2) * 16 + 1 * k.val = k.val; omega

/-- An index of the output array is in point t's block iff each coordinate is in the block's range on its axis. -/
theorem mem_blk (t : Fin cfg1.N) (i : S500000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v32).slice (win1_5.rect t)).set ↔ _
  rw [View.set_slice_whole, Rect.mem_set_unit]
  exact Iff.rfl

/-- THE COVER: row r of the output array is in the block of point r / 10000. -/
theorem cover (i : S500000x32.Idx) : ∃ t : Fin cfg1.N, (cfg1.win 5).flush t = true ∧ i ∈ ((cfg1.win 5).blk t).view.set := by
  have hi0 : (i 0).val < 500000 := (i 0).isLt
  have hi1 : (i 1).val < 32 := (i 1).isLt
  obtain ⟨t, ht⟩ := idx_onto ⟨(i 0).val / 10000, by omega⟩
  have ht' : t.val = (i 0).val / 10000 := ht
  obtain ⟨-, -, -, -, -, -, -, -, -, -, o0, o1, -⟩ := idx_facts t
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 32 ≤ (i 1).val ∧ (i 1).val < win1_5.index t (1 : Fin 2) * 32 + 32; omega

/-- THE OUTPUT ARRAY after the region: the dense stage of the arrays the region found. -/
theorem final (c : Dev nD) : (dat1 V c).arrAt 5 cfg1.N = G V c :=
  (dat1 V c).arrAt_eq_of_cover 5 (G V c) (fun t _ => flushed_eq V c t) cover

end Cert.KernelIdeal.Layer1

end
-- ==== Proof.Region2.lean ====
/-
  Region 2 of the kernel: the dense stage of a graph-convolution layer (32 → 64 channels, clamped at zero), computed by
  blocks of 10000 rows over a grid of 50 points.

  At grid point t the body loads rows 10000·t … 10000·t + 9999 of the aggregated messages and of the node features, the
  whole weight matrices and the whole bias row, and stores the block's dense stage; point t writes it back to rows
  10000·t … of the output array.  The 50 blocks tile the 500000 rows, so after the region the output array IS the
  dense stage of the whole arrays the region found, whatever they are.
-/
import proofs.«162785_j13211319403150_1_alg».proof.Proof.Gen.KernelIdeal.Frame
import proofs.«162785_j13211319403150_1_alg».proof.Proof.DenseSpec
import Idealize.ShloMosaic.Lib.Pipeline.Value
import Idealize.ShloMosaic.Lib.ValueIdx

set_option maxRecDepth 16384

noncomputable section

namespace Cert.KernelIdeal.Layer2

open Cert.KernelIdeal Cert.KernelIdeal.Gen Cert.GraphEnc
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at the block's local index (p, q) is the whole arrays' dense stage at (r, q), when the
    block's row p of both left operands is row r of the whole ones. -/
theorem pay_apply (x0 : Vec Ideal S10000x32 .f32) (x2 : Vec Ideal S32x64 .f32) (x4 : Vec Ideal S10000x32 .f32) (xr : Vec Ideal S32x64 .f32)
    (xb : Vec Ideal S1x64 .f32) (agg x : FVec Ideal S500000x32 .f32) (p : Fin 10000) (r : Fin 500000) (q : Fin 64)
    (hagg : ∀ k : Fin 32, (x0 (ix2 p k) : EReal) = agg (ix2 r k)) (hx : ∀ k : Fin 32, (x4 (ix2 p k) : EReal) = x (ix2 r k)) :
    k2_pay1 (F := Ideal) x0 x2 x4 xr xb (ix2 p q) = denseRelu agg x x2 xb xr (ix2 r q) := by
  unfold k2_pay1
  simp only [shapeCast_self]
  show FloatOps.maximumf (FloatOps.addf (FloatOps.addf
          (matmul (DotDims.plain 10000 32 64) none x0 x2 (constant (F := Ideal) ⟨2, ![10000, 64]⟩ .f32 0x00000000#32) (ix2 p q))
          (broadcastTo ⟨2, ![10000, 64]⟩ xb broadcasts_S1x64_S10000x64 (ix2 p q)))
        (matmul (DotDims.plain 10000 32 64) none x4 xr (constant (F := Ideal) ⟨2, ![10000, 64]⟩ .f32 0x00000000#32) (ix2 p q)))
      (FloatOps.ofBits .f32 0x00000000#32) = _
  unfold denseRelu
  rw [dense_block_apply x0 x4 x2 xb xr broadcasts_S1x64_S10000x64 agg x p r q hagg hx]

/-- The printed index maps, decided over the grid: the row-blocked windows sit at block row t, the whole-array windows at
    block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 50 :=
  (by decide +kernel : ∀ t : Fin grid2.N, _)

/-- Every block row is some point's. -/
theorem idx_onto : ∀ q0 : Fin 50, ∃ t : Fin cfg2.N, t.val = q0.val :=
  (by decide +kernel : ∀ q0 : Fin 50, ∃ t : Fin grid2.N, t.val = q0.val)

/-- A window holding a whole array at block (0, 0) stages the array itself. -/
theorem whole2 (c : Dev nD) (t : Fin cfg2.N) : iblk2 V c 2 t = V c main_arg10 := by
  obtain ⟨-, -, -, -, e0, e1, -⟩ := idx_facts t
  funext y
  show V c main_arg10 (((cfg2.win 2).blk t).view.emb y) = V c main_arg10 y
  refine congrArg _ (funext fun a => Fin.ext ?_)
  match a with
  | ⟨0, _⟩ => show win2_2.index t (0 : Fin 2) * 32 + 1 * (y 0).val = (y 0).val; omega
  | ⟨1, _⟩ => show win2_2.index t (1 : Fin 2) * 64 + 1 * (y 1).val = (y 1).val; omega
theorem whole3 (c : Dev nD) (t : Fin cfg2.N) : iblk2 V c 3 t = V c main_v46 := by
  obtain ⟨-, -, -, -, -, -, e0, e1, -⟩ := idx_facts t
  funext y
  show V c main_v46 (((cfg2.win 3).blk t).view.emb y) = V c main_v46 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega
theorem whole4 (c : Dev nD) (t : Fin cfg2.N) : iblk2 V c 4 t = V c main_arg12 := by
  obtain ⟨-, -, -, -, -, -, -, -, e0, e1, -⟩ := idx_facts t
  funext y
  show V c main_arg12 (((cfg2.win 4).blk t).view.emb y) = V c main_arg12 y
  refine congrArg _ (funext fun a => Fin.ext ?_)
  match a with
  | ⟨0, _⟩ => show win2_4.index t (0 : Fin 2) * 32 + 1 * (y 0).val = (y 0).val; omega
  | ⟨1, _⟩ => show win2_4.index t (1 : Fin 2) * 64 + 1 * (y 1).val = (y 1).val; omega

/-- What the whole arrays' dense stage is, as the region finds them. -/
abbrev G (c : Dev nD) : S500000x64.Idx → EReal := denseRelu (V c main_v45) (V c main_v32) (V c main_arg10) (V c main_v46) (V c main_arg12)

/-- WHAT POINT t WRITES BACK is block t of the dense stage of the arrays the region found. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S10000x32) hz, View.ld_unit_zero (S := S32x64) hz, View.ld_unit_zero (S := S1x64) hz]
  rw [whole2 V c t, whole3 V c t, whole4 V c t]
  obtain ⟨a0, a1, b0, b1, -, -, -, -, -, -, o0, o1, ht⟩ := idx_facts t
  funext j
  obtain ⟨p, q, rfl⟩ : ∃ (p : Fin 10000) (q : Fin 64), j = ix2 p q := ⟨j 0, j 1, eq_ix2 j⟩
  have hp : p.val < 10000 := p.isLt
  have hemb : ((cfg2.win 5).blk t).view.emb (ix2 p q) = ix2 (⟨t.val * 10000 + p.val, by omega⟩ : Fin 500000) q := by
    funext a; apply Fin.ext
    match a with
    | ⟨0, _⟩ => show win2_5.index t (0 : Fin 2) * 10000 + 1 * p.val = t.val * 10000 + p.val; omega
    | ⟨1, _⟩ => show win2_5.index t (1 : Fin 2) * 64 + 1 * q.val = q.val; omega
  show k2_pay1 (F := Ideal) (iblk2 V c 0 t) (V c main_arg10) (iblk2 V c 1 t) (V c main_arg12) (V c main_v46) (ix2 p q)
    = G V c (((cfg2.win 5).blk t).view.emb (ix2 p q))
  rw [hemb]
  refine pay_apply (iblk2 V c 0 t) (V c main_arg10) (iblk2 V c 1 t) (V c main_arg12) (V c main_v46) (V c main_v45) (V c main_v32) p _ q ?_ ?_
  · intro k
    show V c main_v45 (((cfg2.win 0).blk t).view.emb (ix2 p k)) = V c main_v45 (ix2 _ k)
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 32 + 1 * k.val = k.val; omega
  · intro k
    show V c main_v32 (((cfg2.win 1).blk t).view.emb (ix2 p k)) = V c main_v32 (ix2 _ k)
    refine congrArg _ (funext fun a => Fin.ext ?_)
    match a with
    | ⟨0, _⟩ => show win2_1.index t (0 : Fin 2) * 10000 + 1 * p.val = t.val * 10000 + p.val; omega
    | ⟨1, _⟩ => show win2_1.index t (1 : Fin 2) * 32 + 1 * k.val = k.val; omega

/-- An index of the output array is in point t's block iff each coordinate is in the block's range on its axis. -/
theorem mem_blk (t : Fin cfg2.N) (i : S500000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v47).slice (win2_5.rect t)).set ↔ _
  rw [View.set_slice_whole, Rect.mem_set_unit]
  exact Iff.rfl

/-- THE COVER: row r of the output array is in the block of point r / 10000. -/
theorem cover (i : S500000x64.Idx) : ∃ t : Fin cfg2.N, (cfg2.win 5).flush t = true ∧ i ∈ ((cfg2.win 5).blk t).view.set := by
  have hi0 : (i 0).val < 500000 := (i 0).isLt
  have hi1 : (i 1).val < 64 := (i 1).isLt
  obtain ⟨t, ht⟩ := idx_onto ⟨(i 0).val / 10000, by omega⟩
  have ht' : t.val = (i 0).val / 10000 := ht
  obtain ⟨-, -, -, -, -, -, -, -, -, -, o0, o1, -⟩ := idx_facts t
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- THE OUTPUT ARRAY after the region: the dense stage of the arrays the region found. -/
theorem final (c : Dev nD) : (dat2 V c).arrAt 5 cfg2.N = G V c :=
  (dat2 V c).arrAt_eq_of_cover 5 (G V c) (fun t _ => flushed_eq V c t) cover

end Cert.KernelIdeal.Layer2

end
-- ==== Proof.Region3.lean ====
/-
  Region 3 of the kernel: the graph normalisation's pointwise stage over 64 channels, computed by blocks of 10000 rows
  over a grid of 50 points.

  At grid point t the body loads rows 10000·t … 10000·t + 9999 of the features, of the per-node means and of the per-node
  variances, and the whole weight, bias and mean-scale rows, and stores
      w · (h − mean · scale) · rsqrt(var + ε) + b
  entry by entry; point t writes the block back to the same rows of the output array.  The 50 blocks tile the 500000
  rows, so after the region the output array is that expression of the whole arrays the region found.
-/
import proofs.«162785_j13211319403150_1_alg».proof.Proof.Gen.KernelIdeal.Frame
import proofs.«162785_j13211319403150_1_alg».proof.Proof.DenseSpec
import Idealize.ShloMosaic.Lib.Pipeline.Value
import Idealize.ShloMosaic.Lib.ValueIdx

set_option maxRecDepth 16384

noncomputable section

namespace Cert.KernelIdeal.Layer3

open Cert.KernelIdeal Cert.KernelIdeal.Gen Cert.GraphEnc
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at the block's local index (p, q) is the whole arrays' normalisation at (r, q), when the
    three row-blocked operands' entries at (p, q) are the whole arrays' at (r, q). -/
theorem pay_apply (x0 x1 : Vec Ideal S10000x64 .f32) (xs : Vec Ideal S1x64 .f32) (x2 : Vec Ideal S10000x64 .f32) (xw xb : Vec Ideal S1x64 .f32)
    (h mean var : FVec Ideal S500000x64 .f32) (p : Fin 10000) (r : Fin 500000) (q : Fin 64)
    (e1 : (x0 (ix2 p q) : EReal) = h (ix2 r q)) (e2 : (x1 (ix2 p q) : EReal) = mean (ix2 r q)) (e3 : (x2 (ix2 p q) : EReal) = var (ix2 r q)) :
    k3_pay1 (F := Ideal) x0 x1 xs x2 xw xb (ix2 p q) = norm 0x3727C5AC#32 h mean var xw xb xs (ix2 r q) := by
  unfold k3_pay1
  simp only [shapeCast_self]
  show FloatOps.addf (F := Ideal)
      (FloatOps.mulf (F := Ideal) (FloatOps.mulf (F := Ideal) (broadcastTo (α := Ideal .f32) ⟨2, ![10000, 64]⟩ xw broadcasts_S1x64_S10000x64 (ix2 p q))
          (FloatOps.subf (F := Ideal) (x0 (ix2 p q)) (FloatOps.mulf (F := Ideal) (x1 (ix2 p q)) (broadcastTo (α := Ideal .f32) ⟨2, ![10000, 64]⟩ xs broadcasts_S1x64_S10000x64 (ix2 p q)))))
        (FloatOps.rsqrt (F := Ideal) (FloatOps.addf (F := Ideal) (x2 (ix2 p q)) (FloatOps.ofBits (F := Ideal) .f32 0x3727C5AC#32))))
      (broadcastTo (α := Ideal .f32) ⟨2, ![10000, 64]⟩ xb broadcasts_S1x64_S10000x64 (ix2 p q)) = _
  exact norm_block_apply 0x3727C5AC#32 x0 x1 x2 xw xb xs broadcasts_S1x64_S10000x64 h mean var p r q e1 e2 e3

/-- The printed index maps, decided over the grid: the row-blocked windows sit at block row t, the three parameter rows at
    block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 ∧ t.val < 50 :=
  (by decide +kernel : ∀ t : Fin grid3.N, _)

/-- Every block row is some point's. -/
theorem idx_onto : ∀ q0 : Fin 50, ∃ t : Fin cfg3.N, t.val = q0.val :=
  (by decide +kernel : ∀ q0 : Fin 50, ∃ t : Fin grid3.N, t.val = q0.val)

/-- A window holding a whole parameter row at block (0, 0) stages the row itself. -/
theorem whole3 (c : Dev nD) (t : Fin cfg3.N) : iblk3 V c 3 t = V c main_v81 := by
  obtain ⟨-, -, -, -, -, -, e0, e1, -⟩ := idx_facts t
  funext y
  show V c main_v81 (((cfg3.win 3).blk t).view.emb y) = V c main_v81 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 64 + 1 * (y 1).val = (y 1).val; omega
theorem whole4 (c : Dev nD) (t : Fin cfg3.N) : iblk3 V c 4 t = V c main_v82 := by
  obtain ⟨-, -, -, -, -, -, -, -, e0, e1, -⟩ := idx_facts t
  funext y
  show V c main_v82 (((cfg3.win 4).blk t).view.emb y) = V c main_v82 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega
theorem whole5 (c : Dev nD) (t : Fin cfg3.N) : iblk3 V c 5 t = V c main_v83 := by
  obtain ⟨-, -, -, -, -, -, -, -, -, -, e0, e1, -⟩ := idx_facts t
  funext y
  show V c main_v83 (((cfg3.win 5).blk t).view.emb y) = V c main_v83 y
  refine congrArg _ (funext fun a => Fin.ext ?_)
  match a with
  | ⟨0, _⟩ => show win3_5.index t (0 : Fin 2) * 1 + 1 * (y 0).val = (y 0).val; omega
  | ⟨1, _⟩ => show win3_5.index t (1 : Fin 2) * 64 + 1 * (y 1).val = (y 1).val; omega

/-- The normalisation of the whole arrays, as the region finds them. -/
abbrev G (c : Dev nD) : S500000x64.Idx → EReal :=
  norm 0x3727C5AC#32 (V c main_v47) (V c main_v63) (V c main_v80) (V c main_v81) (V c main_v82) (V c main_v83)

/-- WHAT POINT t WRITES BACK is block t of the normalisation of the arrays the region found. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S10000x64) hz, View.ld_unit_zero (S := S1x64) hz]
  rw [whole3 V c t, whole4 V c t, whole5 V c t]
  obtain ⟨a0, a1, b0, b1, c0, c1, -, -, -, -, -, -, o0, o1, ht⟩ := idx_facts t
  funext j
  obtain ⟨p, q, rfl⟩ : ∃ (p : Fin 10000) (q : Fin 64), j = ix2 p q := ⟨j 0, j 1, eq_ix2 j⟩
  have hp : p.val < 10000 := p.isLt
  have hemb : ((cfg3.win 6).blk t).view.emb (ix2 p q) = ix2 (⟨t.val * 10000 + p.val, by omega⟩ : Fin 500000) q := by
    funext a; apply Fin.ext
    match a with
    | ⟨0, _⟩ => show win3_6.index t (0 : Fin 2) * 10000 + 1 * p.val = t.val * 10000 + p.val; omega
    | ⟨1, _⟩ => show win3_6.index t (1 : Fin 2) * 64 + 1 * q.val = q.val; omega
  show k3_pay1 (F := Ideal) (iblk3 V c 0 t) (iblk3 V c 1 t) (V c main_v83) (iblk3 V c 2 t) (V c main_v81) (V c main_v82) (ix2 p q)
    = G V c (((cfg3.win 6).blk t).view.emb (ix2 p q))
  rw [hemb]
  refine pay_apply (iblk3 V c 0 t) (iblk3 V c 1 t) (V c main_v83) (iblk3 V c 2 t) (V c main_v81) (V c main_v82)
    (V c main_v47) (V c main_v63) (V c main_v80) p _ q ?_ ?_ ?_
  · show V c main_v47 (((cfg3.win 0).blk t).view.emb (ix2 p q)) = V c main_v47 (ix2 _ q)
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * q.val = q.val; omega
  · show V c main_v63 (((cfg3.win 1).blk t).view.emb (ix2 p q)) = V c main_v63 (ix2 _ q)
    refine congrArg _ (funext fun a => Fin.ext ?_)
    match a with
    | ⟨0, _⟩ => show win3_1.index t (0 : Fin 2) * 10000 + 1 * p.val = t.val * 10000 + p.val; omega
    | ⟨1, _⟩ => show win3_1.index t (1 : Fin 2) * 64 + 1 * q.val = q.val; omega
  · show V c main_v80 (((cfg3.win 2).blk t).view.emb (ix2 p q)) = V c main_v80 (ix2 _ q)
    refine congrArg _ (funext fun a => Fin.ext ?_)
    match a with
    | ⟨0, _⟩ => show win3_2.index t (0 : Fin 2) * 10000 + 1 * p.val = t.val * 10000 + p.val; omega
    | ⟨1, _⟩ => show win3_2.index t (1 : Fin 2) * 64 + 1 * q.val = q.val; omega

/-- An index of the output array is in point t's block iff each coordinate is in the block's range on its axis. -/
theorem mem_blk (t : Fin cfg3.N) (i : S500000x64.Idx) :
    i ∈ ((cfg3.win 6).blk t).view.set ↔ ∀ a : Fin 2, win3_6.index t a * S10000x64.size a ≤ (i a).val ∧ (i a).val < win3_6.index t a * S10000x64.size a + S10000x64.size a := by
  show i ∈ ((View.whole main_v84).slice (win3_6.rect t)).set ↔ _
  rw [View.set_slice_whole, Rect.mem_set_unit]
  exact Iff.rfl

/-- THE COVER: row r of the output array is in the block of point r / 10000. -/
theorem cover (i : S500000x64.Idx) : ∃ t : Fin cfg3.N, (cfg3.win 6).flush t = true ∧ i ∈ ((cfg3.win 6).blk t).view.set := by
  have hi0 : (i 0).val < 500000 := (i 0).isLt
  have hi1 : (i 1).val < 64 := (i 1).isLt
  obtain ⟨t, ht⟩ := idx_onto ⟨(i 0).val / 10000, by omega⟩
  have ht' : t.val = (i 0).val / 10000 := ht
  obtain ⟨-, -, -, -, -, -, -, -, -, -, -, -, o0, o1, -⟩ := idx_facts t
  refine ⟨t, flush3_6 t, ?_⟩
  rw [mem_blk]
  intro a
  match a with
  | ⟨0, _⟩ => show win3_6.index t (0 : Fin 2) * 10000 ≤ (i 0).val ∧ (i 0).val < win3_6.index t (0 : Fin 2) * 10000 + 10000; omega
  | ⟨1, _⟩ => show win3_6.index t (1 : Fin 2) * 64 ≤ (i 1).val ∧ (i 1).val < win3_6.index t (1 : Fin 2) * 64 + 64; omega

/-- THE OUTPUT ARRAY after the region: the normalisation of the arrays the region found. -/
theorem final (c : Dev nD) : (dat3 V c).arrAt 6 cfg3.N = G V c :=
  (dat3 V c).arrAt_eq_of_cover 6 (G V c) (fun t _ => flushed_eq V c t) cover

end Cert.KernelIdeal.Layer3

end
-- ==== Proof.Region4.lean ====
/-
  Region 4 of the kernel: the dense stage of a graph-convolution layer (64 → 64 channels), computed by
  blocks of 10000 rows over a grid of 50 points.

  At grid point t the body loads rows 10000·t … 10000·t + 9999 of the aggregated messages and of the node features, the
  whole weight matrices and the whole bias row, and stores the block's dense stage; point t writes it back to rows
  10000·t … of the output array.  The 50 blocks tile the 500000 rows, so after the region the output array IS the
  dense stage of the whole arrays the region found, whatever they are.
-/
import proofs.«162785_j13211319403150_1_alg».proof.Proof.Gen.KernelIdeal.Frame
import proofs.«162785_j13211319403150_1_alg».proof.Proof.DenseSpec
import Idealize.ShloMosaic.Lib.Pipeline.Value
import Idealize.ShloMosaic.Lib.ValueIdx

set_option maxRecDepth 16384

noncomputable section

namespace Cert.KernelIdeal.Layer4

open Cert.KernelIdeal Cert.KernelIdeal.Gen Cert.GraphEnc
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at the block's local index (p, q) is the whole arrays' dense stage at (r, q), when the
    block's row p of both left operands is row r of the whole ones. -/
theorem pay_apply (x0 : Vec Ideal S10000x64 .f32) (x2 : Vec Ideal S64x64 .f32) (x4 : Vec Ideal S10000x64 .f32) (xr : Vec Ideal S64x64 .f32)
    (xb : Vec Ideal S1x64 .f32) (agg x : FVec Ideal S500000x64 .f32) (p : Fin 10000) (r : Fin 500000) (q : Fin 64)
    (hagg : ∀ k : Fin 64, (x0 (ix2 p k) : EReal) = agg (ix2 r k)) (hx : ∀ k : Fin 64, (x4 (ix2 p k) : EReal) = x (ix2 r k)) :
    k4_pay1 (F := Ideal) x0 x2 x4 xr xb (ix2 p q) = dense agg x x2 xb xr (ix2 r q) := by
  unfold k4_pay1
  simp only [shapeCast_self]
  show FloatOps.addf (FloatOps.addf
          (matmul (DotDims.plain 10000 64 64) none x0 x2 (constant (F := Ideal) ⟨2, ![10000, 64]⟩ .f32 0x00000000#32) (ix2 p q))
          (broadcastTo ⟨2, ![10000, 64]⟩ xb broadcasts_S1x64_S10000x64 (ix2 p q)))
        (matmul (DotDims.plain 10000 64 64) none x4 xr (constant (F := Ideal) ⟨2, ![10000, 64]⟩ .f32 0x00000000#32) (ix2 p q)) = _
  rw [dense_block_apply x0 x4 x2 xb xr broadcasts_S1x64_S10000x64 agg x p r q hagg hx]

/-- The printed index maps, decided over the grid: the row-blocked windows sit at block row t, the whole-array windows at
    block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 ∧ t.val < 50 :=
  (by decide +kernel : ∀ t : Fin grid4.N, _)

/-- Every block row is some point's. -/
theorem idx_onto : ∀ q0 : Fin 50, ∃ t : Fin cfg4.N, t.val = q0.val :=
  (by decide +kernel : ∀ q0 : Fin 50, ∃ t : Fin grid4.N, t.val = q0.val)

/-- A window holding a whole array at block (0, 0) stages the array itself. -/
theorem whole2 (c : Dev nD) (t : Fin cfg4.N) : iblk4 V c 2 t = V c main_arg13 := by
  obtain ⟨-, -, -, -, e0, e1, -⟩ := idx_facts t
  funext y
  show V c main_arg13 (((cfg4.win 2).blk t).view.emb y) = V c main_arg13 y
  refine congrArg _ (funext fun a => Fin.ext ?_)
  match a with
  | ⟨0, _⟩ => show win4_2.index t (0 : Fin 2) * 64 + 1 * (y 0).val = (y 0).val; omega
  | ⟨1, _⟩ => show win4_2.index t (1 : Fin 2) * 64 + 1 * (y 1).val = (y 1).val; omega
theorem whole3 (c : Dev nD) (t : Fin cfg4.N) : iblk4 V c 3 t = V c main_v98 := by
  obtain ⟨-, -, -, -, -, -, e0, e1, -⟩ := idx_facts t
  funext y
  show V c main_v98 (((cfg4.win 3).blk t).view.emb y) = V c main_v98 y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 64 + 1 * (y 1).val = (y 1).val; omega
theorem whole4 (c : Dev nD) (t : Fin cfg4.N) : iblk4 V c 4 t = V c main_arg15 := by
  obtain ⟨-, -, -, -, -, -, -, -, e0, e1, -⟩ := idx_facts t
  funext y
  show V c main_arg15 (((cfg4.win 4).blk t).view.emb y) = V c main_arg15 y
  refine congrArg _ (funext fun a => Fin.ext ?_)
  match a with
  | ⟨0, _⟩ => show win4_4.index t (0 : Fin 2) * 64 + 1 * (y 0).val = (y 0).val; omega
  | ⟨1, _⟩ => show win4_4.index t (1 : Fin 2) * 64 + 1 * (y 1).val = (y 1).val; omega

/-- What the whole arrays' dense stage is, as the region finds them. -/
abbrev G (c : Dev nD) : S500000x64.Idx → EReal := dense (V c main_v97) (V c main_v84) (V c main_arg13) (V c main_v98) (V c main_arg15)

/-- WHAT POINT t WRITES BACK is block t of the dense stage of the arrays the region found. -/
theorem flushed_eq (c : Dev nD) (t : Fin cfg4.N) :
    (dat4 V c).flushed 5 t = ((cfg4.win 5).blk t).view.read (Elt Ideal) (G V c) := by
  show (cfg4.win 5).cut (grid4.coords t) ((dat4 V c).after 5 t) = _
  rw [after4_5]
  unfold out4_5
  rw [View.canon_unit_zero hz]
  simp only [View.ld_unit_zero (S := S10000x64) hz, View.ld_unit_zero (S := S64x64) hz, View.ld_unit_zero (S := S1x64) hz]
  rw [whole2 V c t, whole3 V c t, whole4 V c t]
  obtain ⟨a0, a1, b0, b1, -, -, -, -, -, -, o0, o1, ht⟩ := idx_facts t
  funext j
  obtain ⟨p, q, rfl⟩ : ∃ (p : Fin 10000) (q : Fin 64), j = ix2 p q := ⟨j 0, j 1, eq_ix2 j⟩
  have hp : p.val < 10000 := p.isLt
  have hemb : ((cfg4.win 5).blk t).view.emb (ix2 p q) = ix2 (⟨t.val * 10000 + p.val, by omega⟩ : Fin 500000) q := by
    funext a; apply Fin.ext
    match a with
    | ⟨0, _⟩ => show win4_5.index t (0 : Fin 2) * 10000 + 1 * p.val = t.val * 10000 + p.val; omega
    | ⟨1, _⟩ => show win4_5.index t (1 : Fin 2) * 64 + 1 * q.val = q.val; omega
  show k4_pay1 (F := Ideal) (iblk4 V c 0 t) (V c main_arg13) (iblk4 V c 1 t) (V c main_arg15) (V c main_v98) (ix2 p q)
    = G V c (((cfg4.win 5).blk t).view.emb (ix2 p q))
  rw [hemb]
  refine pay_apply (iblk4 V c 0 t) (V c main_arg13) (iblk4 V c 1 t) (V c main_arg15) (V c main_v98) (V c main_v97) (V c main_v84) p _ q ?_ ?_
  · intro k
    show V c main_v97 (((cfg4.win 0).blk t).view.emb (ix2 p k)) = V c main_v97 (ix2 _ k)
    refine congrArg _ (funext fun a => Fin.ext ?_)
    match a with
    | ⟨0, _⟩ => show win4_0.index t (0 : Fin 2) * 10000 + 1 * p.val = t.val * 10000 + p.val; omega
    | ⟨1, _⟩ => show win4_0.index t (1 : Fin 2) * 64 + 1 * k.val = k.val; omega
  · intro k
    show V c main_v84 (((cfg4.win 1).blk t).view.emb (ix2 p k)) = V c main_v84 (ix2 _ k)
    refine congrArg _ (funext fun a => Fin.ext ?_)
    match a with
    | ⟨0, _⟩ => show win4_1.index t (0 : Fin 2) * 10000 + 1 * p.val = t.val * 10000 + p.val; omega
    | ⟨1, _⟩ => show win4_1.index t (1 : Fin 2) * 64 + 1 * k.val = k.val; omega

/-- An index of the output array is in point t's block iff each coordinate is in the block's range on its axis. -/
theorem mem_blk (t : Fin cfg4.N) (i : S500000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v99).slice (win4_5.rect t)).set ↔ _
  rw [View.set_slice_whole, Rect.mem_set_unit]
  exact Iff.rfl

/-- THE COVER: row r of the output array is in the block of point r / 10000. -/
theorem cover (i : S500000x64.Idx) : ∃ t : Fin cfg4.N, (cfg4.win 5).flush t = true ∧ i ∈ ((cfg4.win 5).blk t).view.set := by
  have hi0 : (i 0).val < 500000 := (i 0).isLt
  have hi1 : (i 1).val < 64 := (i 1).isLt
  obtain ⟨t, ht⟩ := idx_onto ⟨(i 0).val / 10000, by omega⟩
  have ht' : t.val = (i 0).val / 10000 := ht
  obtain ⟨-, -, -, -, -, -, -, -, -, -, o0, o1, -⟩ := idx_facts t
  refine ⟨t, flush4_5 t, ?_⟩
  rw [mem_blk]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 64 ≤ (i 1).val ∧ (i 1).val < win4_5.index t (1 : Fin 2) * 64 + 64; omega

/-- THE OUTPUT ARRAY after the region: the dense stage of the arrays the region found. -/
theorem final (c : Dev nD) : (dat4 V c).arrAt 5 cfg4.N = G V c :=
  (dat4 V c).arrAt_eq_of_cover 5 (G V c) (fun t _ => flushed_eq V c t) cover

end Cert.KernelIdeal.Layer4

end
-- ==== Proof.Region5.lean ====
/-
  Region 5 of the kernel: the dense stage of a graph-convolution layer (64 → 64 channels), computed by
  blocks of 10000 rows over a grid of 50 points.

  At grid point t the body loads rows 10000·t … 10000·t + 9999 of the aggregated messages and of the node features, the
  whole weight matrices and the whole bias row, and stores the block's dense stage; point t writes it back to rows
  10000·t … of the output array.  The 50 blocks tile the 500000 rows, so after the region the output array IS the
  dense stage of the whole arrays the region found, whatever they are.
-/
import proofs.«162785_j13211319403150_1_alg».proof.Proof.Gen.KernelIdeal.Frame
import proofs.«162785_j13211319403150_1_alg».proof.Proof.DenseSpec
import Idealize.ShloMosaic.Lib.Pipeline.Value
import Idealize.ShloMosaic.Lib.ValueIdx

set_option maxRecDepth 16384

noncomputable section

namespace Cert.KernelIdeal.Layer5

open Cert.KernelIdeal Cert.KernelIdeal.Gen Cert.GraphEnc
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at the block's local index (p, q) is the whole arrays' dense stage at (r, q), when the
    block's row p of both left operands is row r of the whole ones. -/
theorem pay_apply (x0 : Vec Ideal S10000x64 .f32) (x2 : Vec Ideal S64x64 .f32) (x4 : Vec Ideal S10000x64 .f32) (xr : Vec Ideal S64x64 .f32)
    (xb : Vec Ideal S1x64 .f32) (agg x : FVec Ideal S500000x64 .f32) (p : Fin 10000) (r : Fin 500000) (q : Fin 64)
    (hagg : ∀ k : Fin 64, (x0 (ix2 p k) : EReal) = agg (ix2 r k)) (hx : ∀ k : Fin 64, (x4 (ix2 p k) : EReal) = x (ix2 r k)) :
    k5_pay1 (F := Ideal) x0 x2 x4 xr xb (ix2 p q) = dense agg x x2 xb xr (ix2 r q) := by
  unfold k5_pay1
  simp only [shapeCast_self]
  show FloatOps.addf (FloatOps.addf
          (matmul (DotDims.plain 10000 64 64) none x0 x2 (constant (F := Ideal) ⟨2, ![10000, 64]⟩ .f32 0x00000000#32) (ix2 p q))
          (broadcastTo ⟨2, ![10000, 64]⟩ xb broadcasts_S1x64_S10000x64 (ix2 p q)))
        (matmul (DotDims.plain 10000 64 64) none x4 xr (constant (F := Ideal) ⟨2, ![10000, 64]⟩ .f32 0x00000000#32) (ix2 p q)) = _
  rw [dense_block_apply x0 x4 x2 xb xr broadcasts_S1x64_S10000x64 agg x p r q hagg hx]

/-- The printed index maps, decided over the grid: the row-blocked windows sit at block row t, the whole-array windows at
    block (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 ∧ t.val < 50 :=
  (by decide +kernel : ∀ t : Fin grid5.N, _)

/-- Every block row is some point's. -/
theorem idx_onto : ∀ q0 : Fin 50, ∃ t : Fin cfg5.N, t.val = q0.val :=
  (by decide +kernel : ∀ q0 : Fin 50, ∃ t : Fin grid5.N, t.val = q0.val)

/-- A window holding a whole array at block (0, 0) stages the array itself. -/
theorem whole2 (c : Dev nD) (t : Fin cfg5.N) : iblk5 V c 2 t = V c main_arg16 := by
  obtain ⟨-, -, -, -, e0, e1, -⟩ := idx_facts t
  funext y
  show V c main_arg16 (((cfg5.win 2).blk t).view.emb y) = V c main_arg16 y
  refine congrArg _ (funext fun a => Fin.ext ?_)
  match a with
  | ⟨0, _⟩ => show win5_2.index t (0 : Fin 2) * 64 + 1 * (y 0).val = (y 0).val; omega
  | ⟨1, _⟩ => show win5_2.index t (1 : Fin 2) * 64 + 1 * (y 1).val = (y 1).val; omega
theorem whole3 (c : Dev nD) (t : Fin cfg5.N) : iblk5 V c 3 t = V c main_v113 := by
  obtain ⟨-, -, -, -, -, -, e0, e1, -⟩ := idx_facts t
  funext y
  show V c main_v113 (((cfg5.win 3).blk t).view.emb y) = V c main_v113 y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 64 + 1 * (y 1).val = (y 1).val; omega
theorem whole4 (c : Dev nD) (t : Fin cfg5.N) : iblk5 V c 4 t = V c main_arg18 := by
  obtain ⟨-, -, -, -, -, -, -, -, e0, e1, -⟩ := idx_facts t
  funext y
  show V c main_arg18 (((cfg5.win 4).blk t).view.emb y) = V c main_arg18 y
  refine congrArg _ (funext fun a => Fin.ext ?_)
  match a with
  | ⟨0, _⟩ => show win5_4.index t (0 : Fin 2) * 64 + 1 * (y 0).val = (y 0).val; omega
  | ⟨1, _⟩ => show win5_4.index t (1 : Fin 2) * 64 + 1 * (y 1).val = (y 1).val; omega

/-- What the whole arrays' dense stage is, as the region finds them. -/
abbrev G (c : Dev nD) : S500000x64.Idx → EReal := dense (V c main_v112) (V c main_v84) (V c main_arg16) (V c main_v113) (V c main_arg18)

/-- WHAT POINT t WRITES BACK is block t of the dense stage of the arrays the region found. -/
theorem flushed_eq (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S10000x64) hz, View.ld_unit_zero (S := S64x64) hz, View.ld_unit_zero (S := S1x64) hz]
  rw [whole2 V c t, whole3 V c t, whole4 V c t]
  obtain ⟨a0, a1, b0, b1, -, -, -, -, -, -, o0, o1, ht⟩ := idx_facts t
  funext j
  obtain ⟨p, q, rfl⟩ : ∃ (p : Fin 10000) (q : Fin 64), j = ix2 p q := ⟨j 0, j 1, eq_ix2 j⟩
  have hp : p.val < 10000 := p.isLt
  have hemb : ((cfg5.win 5).blk t).view.emb (ix2 p q) = ix2 (⟨t.val * 10000 + p.val, by omega⟩ : Fin 500000) q := by
    funext a; apply Fin.ext
    match a with
    | ⟨0, _⟩ => show win5_5.index t (0 : Fin 2) * 10000 + 1 * p.val = t.val * 10000 + p.val; omega
    | ⟨1, _⟩ => show win5_5.index t (1 : Fin 2) * 64 + 1 * q.val = q.val; omega
  show k5_pay1 (F := Ideal) (iblk5 V c 0 t) (V c main_arg16) (iblk5 V c 1 t) (V c main_arg18) (V c main_v113) (ix2 p q)
    = G V c (((cfg5.win 5).blk t).view.emb (ix2 p q))
  rw [hemb]
  refine pay_apply (iblk5 V c 0 t) (V c main_arg16) (iblk5 V c 1 t) (V c main_arg18) (V c main_v113) (V c main_v112) (V c main_v84) p _ q ?_ ?_
  · intro k
    show V c main_v112 (((cfg5.win 0).blk t).view.emb (ix2 p k)) = V c main_v112 (ix2 _ k)
    refine congrArg _ (funext fun a => Fin.ext ?_)
    match a with
    | ⟨0, _⟩ => show win5_0.index t (0 : Fin 2) * 10000 + 1 * p.val = t.val * 10000 + p.val; omega
    | ⟨1, _⟩ => show win5_0.index t (1 : Fin 2) * 64 + 1 * k.val = k.val; omega
  · intro k
    show V c main_v84 (((cfg5.win 1).blk t).view.emb (ix2 p k)) = V c main_v84 (ix2 _ k)
    refine congrArg _ (funext fun a => Fin.ext ?_)
    match a with
    | ⟨0, _⟩ => show win5_1.index t (0 : Fin 2) * 10000 + 1 * p.val = t.val * 10000 + p.val; omega
    | ⟨1, _⟩ => show win5_1.index t (1 : Fin 2) * 64 + 1 * k.val = k.val; omega

/-- An index of the output array is in point t's block iff each coordinate is in the block's range on its axis. -/
theorem mem_blk (t : Fin cfg5.N) (i : S500000x64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v114).slice (win5_5.rect t)).set ↔ _
  rw [View.set_slice_whole, Rect.mem_set_unit]
  exact Iff.rfl

/-- THE COVER: row r of the output array is in the block of point r / 10000. -/
theorem cover (i : S500000x64.Idx) : ∃ t : Fin cfg5.N, (cfg5.win 5).flush t = true ∧ i ∈ ((cfg5.win 5).blk t).view.set := by
  have hi0 : (i 0).val < 500000 := (i 0).isLt
  have hi1 : (i 1).val < 64 := (i 1).isLt
  obtain ⟨t, ht⟩ := idx_onto ⟨(i 0).val / 10000, by omega⟩
  have ht' : t.val = (i 0).val / 10000 := ht
  obtain ⟨-, -, -, -, -, -, -, -, -, -, o0, o1, -⟩ := idx_facts t
  refine ⟨t, flush5_5 t, ?_⟩
  rw [mem_blk]
  intro a
  match a with
  | ⟨0, _⟩ => show win5_5.index t (0 : Fin 2) * 10000 ≤ (i 0).val ∧ (i 0).val < win5_5.index t (0 : Fin 2) * 10000 + 10000; omega
  | ⟨1, _⟩ => show win5_5.index t (1 : Fin 2) * 64 ≤ (i 1).val ∧ (i 1).val < win5_5.index t (1 : Fin 2) * 64 + 64; omega

/-- THE OUTPUT ARRAY after the region: the dense stage of the arrays the region found. -/
theorem final (c : Dev nD) : (dat5 V c).arrAt 5 cfg5.N = G V c :=
  (dat5 V c).arrAt_eq_of_cover 5 (G V c) (fun t _ => flushed_eq V c t) cover

end Cert.KernelIdeal.Layer5

end
-- ==== Proof.RowOf.lean ====
/-
  A vector of N entries laid out as a 1 × N row: entry (0, q) of the row is entry q of the vector.  A reshape of the
  vector to one row is that row.
-/
import Idealize.ShloMosaic.Lib.Pipeline.Value
import Idealize.ShloMosaic.Lib.ValueIdx

namespace Cert.GraphEnc

open Idealize.ShloMosaic Idealize.ShloMosaic.ValueIdx

variable {N : Nat} {α : Type}

/-- The vector `b` as a 1 × N row. -/
def biasRow (b : (⟨1, ![N]⟩ : Shape).Idx → α) : (⟨2, ![1, N]⟩ : Shape).Idx → α := fun j => b (ix1 (j 1))

/-- Reshaping a vector of N entries to 1 × N gives its row. -/
theorem shapeCast_row (b : (⟨1, ![N]⟩ : Shape).Idx → α) (h : (⟨1, ![N]⟩ : Shape).ShapeCasts ⟨2, ![1, N]⟩) :
    shapeCast ⟨2, ![1, N]⟩ b h = biasRow b := by
  funext j
  exact (shapeCast_addUnit_apply ![N] b h j).trans (congrArg b (funext fun a => by match a with | ⟨0, _⟩ => rfl))

end Cert.GraphEnc
-- ==== Proof.RefLayers.lean ====
/-
  The reference, layer by layer: each graph-convolution layer's result is the dense stage of its operands, and the
  normalisation's result is the pointwise normalisation of its operands — the same whole-array functions the kernel's
  regions compute.  The irregular parts (the gather of neighbour features, the scatter-add over edges, the per-graph
  statistics) stay as the operands they are: both programs compute them by the same host operations.
-/
import proofs.«162785_j13211319403150_1_alg».proof.Proof.Gen.ReferenceIdeal.Read
import proofs.«162785_j13211319403150_1_alg».proof.Proof.DenseSpec
import proofs.«162785_j13211319403150_1_alg».proof.Proof.RowOf

set_option maxRecDepth 16384

noncomputable section

namespace Cert.ReferenceIdeal.Layers

open Cert.ReferenceIdeal Cert.ReferenceIdeal.Read Cert.GraphEnc
open Idealize.ShloMosaic Idealize.ShloMosaic.ValueIdx

/-- Layer 1 of the reference: its result is the dense stage, clamped at zero, of the aggregated messages, the layer's
    input, the two weight matrices and the bias as a row. -/
theorem layer1 (x0 : (⟨S500000x1, .f32⟩ : BufTy).Contents (Elt Ideal)) (x1 : (⟨S2x2000000, .i32⟩ : BufTy).Contents (Elt Ideal)) (x2 : (⟨S2000000, .f32⟩ : BufTy).Contents (Elt Ideal)) (x4 : (⟨S1x16, .f32⟩ : BufTy).Contents (Elt Ideal)) (x5 : (⟨S16, .f32⟩ : BufTy).Contents (Elt Ideal)) (x6 : (⟨S1x16, .f32⟩ : BufTy).Contents (Elt Ideal)) :
    val_main_v22 (F := Ideal) x0 x1 x2 x4 x5 x6 = denseRelu (val_main_v15 (F := Ideal) x0 x1 x2) x0 x4 (biasRow x5) x6 := by
  funext i
  obtain ⟨r, q, rfl⟩ : ∃ (r : Fin 500000) (q : Fin 16), i = ix2 r q := ⟨i 0, i 1, eq_ix2 i⟩
  have e : idx_main_v17 (idx_main_v18 (ix2 r q)) = ix1 q := funext fun a => by match a with | ⟨0, _⟩ => rfl
  rw [val_main_v22_apply, val_main_v21_apply, val_main_v19_apply, val_main_v18_apply, val_main_v17_apply, e, val_main_call0_v0_apply, val_main_call0_cst_apply]
  rfl

/-- Layer 2 of the reference: its result is the dense stage, clamped at zero, of the aggregated messages, the layer's
    input, the two weight matrices and the bias as a row. -/
theorem layer2 (x0 : (⟨S500000x1, .f32⟩ : BufTy).Contents (Elt Ideal)) (x1 : (⟨S2x2000000, .i32⟩ : BufTy).Contents (Elt Ideal)) (x2 : (⟨S2000000, .f32⟩ : BufTy).Contents (Elt Ideal)) (x4 : (⟨S1x16, .f32⟩ : BufTy).Contents (Elt Ideal)) (x5 : (⟨S16, .f32⟩ : BufTy).Contents (Elt Ideal)) (x6 : (⟨S1x16, .f32⟩ : BufTy).Contents (Elt Ideal)) (x7 : (⟨S16x32, .f32⟩ : BufTy).Contents (Elt Ideal)) (x8 : (⟨S32, .f32⟩ : BufTy).Contents (Elt Ideal)) (x9 : (⟨S16x32, .f32⟩ : BufTy).Contents (Elt Ideal)) :
    val_main_v42 (F := Ideal) x0 x1 x2 x4 x5 x6 x7 x8 x9 = denseRelu (val_main_v35 (F := Ideal) x0 x1 x2 x4 x5 x6) (val_main_v22 (F := Ideal) x0 x1 x2 x4 x5 x6) x7 (biasRow x8) x9 := by
  funext i
  obtain ⟨r, q, rfl⟩ : ∃ (r : Fin 500000) (q : Fin 32), i = ix2 r q := ⟨i 0, i 1, eq_ix2 i⟩
  have e : idx_main_v37 (idx_main_v38 (ix2 r q)) = ix1 q := funext fun a => by match a with | ⟨0, _⟩ => rfl
  rw [val_main_v42_apply, val_main_v41_apply, val_main_v39_apply, val_main_v38_apply, val_main_v37_apply, e, val_main_call1_v0_apply, val_main_call1_cst_apply]
  rfl

/-- Layer 3 of the reference: its result is the dense stage, clamped at zero, of the aggregated messages, the layer's
    input, the two weight matrices and the bias as a row. -/
theorem layer3 (x0 : (⟨S500000x1, .f32⟩ : BufTy).Contents (Elt Ideal)) (x1 : (⟨S2x2000000, .i32⟩ : BufTy).Contents (Elt Ideal)) (x2 : (⟨S2000000, .f32⟩ : BufTy).Contents (Elt Ideal)) (x4 : (⟨S1x16, .f32⟩ : BufTy).Contents (Elt Ideal)) (x5 : (⟨S16, .f32⟩ : BufTy).Contents (Elt Ideal)) (x6 : (⟨S1x16, .f32⟩ : BufTy).Contents (Elt Ideal)) (x7 : (⟨S16x32, .f32⟩ : BufTy).Contents (Elt Ideal)) (x8 : (⟨S32, .f32⟩ : BufTy).Contents (Elt Ideal)) (x9 : (⟨S16x32, .f32⟩ : BufTy).Contents (Elt Ideal)) (x10 : (⟨S32x64, .f32⟩ : BufTy).Contents (Elt Ideal)) (x11 : (⟨S64, .f32⟩ : BufTy).Contents (Elt Ideal)) (x12 : (⟨S32x64, .f32⟩ : BufTy).Contents (Elt Ideal)) :
    val_main_v62 (F := Ideal) x0 x1 x2 x4 x5 x6 x7 x8 x9 x10 x11 x12 = denseRelu (val_main_v55 (F := Ideal) x0 x1 x2 x4 x5 x6 x7 x8 x9) (val_main_v42 (F := Ideal) x0 x1 x2 x4 x5 x6 x7 x8 x9) x10 (biasRow x11) x12 := by
  funext i
  obtain ⟨r, q, rfl⟩ : ∃ (r : Fin 500000) (q : Fin 64), i = ix2 r q := ⟨i 0, i 1, eq_ix2 i⟩
  have e : idx_main_v57 (idx_main_v58 (ix2 r q)) = ix1 q := funext fun a => by match a with | ⟨0, _⟩ => rfl
  rw [val_main_v62_apply, val_main_v61_apply, val_main_v59_apply, val_main_v58_apply, val_main_v57_apply, e, val_main_call2_v0_apply, val_main_call2_cst_apply]
  rfl

/-- Layer Mu of the reference: its result is the dense stage of the aggregated messages, the layer's
    input, the two weight matrices and the bias as a row. -/
theorem layerMu (x0 : (⟨S500000x1, .f32⟩ : BufTy).Contents (Elt Ideal)) (x1 : (⟨S2x2000000, .i32⟩ : BufTy).Contents (Elt Ideal)) (x2 : (⟨S2000000, .f32⟩ : BufTy).Contents (Elt Ideal)) (x3 : (⟨S500000, .i32⟩ : BufTy).Contents (Elt Ideal)) (x4 : (⟨S1x16, .f32⟩ : BufTy).Contents (Elt Ideal)) (x5 : (⟨S16, .f32⟩ : BufTy).Contents (Elt Ideal)) (x6 : (⟨S1x16, .f32⟩ : BufTy).Contents (Elt Ideal)) (x7 : (⟨S16x32, .f32⟩ : BufTy).Contents (Elt Ideal)) (x8 : (⟨S32, .f32⟩ : BufTy).Contents (Elt Ideal)) (x9 : (⟨S16x32, .f32⟩ : BufTy).Contents (Elt Ideal)) (x10 : (⟨S32x64, .f32⟩ : BufTy).Contents (Elt Ideal)) (x11 : (⟨S64, .f32⟩ : BufTy).Contents (Elt Ideal)) (x12 : (⟨S32x64, .f32⟩ : BufTy).Contents (Elt Ideal)) (x13 : (⟨S64x64, .f32⟩ : BufTy).Contents (Elt Ideal)) (x14 : (⟨S64, .f32⟩ : BufTy).Contents (Elt Ideal)) (x15 : (⟨S64x64, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) :
    val_main_v124 (F := Ideal) x0 x1 x2 x3 x4 x5 x6 x7 x8 x9 x10 x11 x12 x13 x14 x15 x19 x20 x21 = dense (val_main_v118 (F := Ideal) x0 x1 x2 x3 x4 x5 x6 x7 x8 x9 x10 x11 x12 x19 x20 x21) (val_main_v105 (F := Ideal) x0 x1 x2 x3 x4 x5 x6 x7 x8 x9 x10 x11 x12 x19 x20 x21) x13 (biasRow x14) x15 := by
  funext i
  obtain ⟨r, q, rfl⟩ : ∃ (r : Fin 500000) (q : Fin 64), i = ix2 r q := ⟨i 0, i 1, eq_ix2 i⟩
  have e : idx_main_v120 (idx_main_v121 (ix2 r q)) = ix1 q := funext fun a => by match a with | ⟨0, _⟩ => rfl
  rw [val_main_v124_apply, val_main_v122_apply, val_main_v121_apply, val_main_v120_apply, e]
  rfl

/-- Layer Lv of the reference: its result is the dense stage of the aggregated messages, the layer's
    input, the two weight matrices and the bias as a row. -/
theorem layerLv (x0 : (⟨S500000x1, .f32⟩ : BufTy).Contents (Elt Ideal)) (x1 : (⟨S2x2000000, .i32⟩ : BufTy).Contents (Elt Ideal)) (x2 : (⟨S2000000, .f32⟩ : BufTy).Contents (Elt Ideal)) (x3 : (⟨S500000, .i32⟩ : BufTy).Contents (Elt Ideal)) (x4 : (⟨S1x16, .f32⟩ : BufTy).Contents (Elt Ideal)) (x5 : (⟨S16, .f32⟩ : BufTy).Contents (Elt Ideal)) (x6 : (⟨S1x16, .f32⟩ : BufTy).Contents (Elt Ideal)) (x7 : (⟨S16x32, .f32⟩ : BufTy).Contents (Elt Ideal)) (x8 : (⟨S32, .f32⟩ : BufTy).Contents (Elt Ideal)) (x9 : (⟨S16x32, .f32⟩ : BufTy).Contents (Elt Ideal)) (x10 : (⟨S32x64, .f32⟩ : BufTy).Contents (Elt Ideal)) (x11 : (⟨S64, .f32⟩ : BufTy).Contents (Elt Ideal)) (x12 : (⟨S32x64, .f32⟩ : BufTy).Contents (Elt Ideal)) (x16 : (⟨S64x64, .f32⟩ : BufTy).Contents (Elt Ideal)) (x17 : (⟨S64, .f32⟩ : BufTy).Contents (Elt Ideal)) (x18 : (⟨S64x64, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) :
    val_main_v143 (F := Ideal) x0 x1 x2 x3 x4 x5 x6 x7 x8 x9 x10 x11 x12 x16 x17 x18 x19 x20 x21 = dense (val_main_v137 (F := Ideal) x0 x1 x2 x3 x4 x5 x6 x7 x8 x9 x10 x11 x12 x19 x20 x21) (val_main_v105 (F := Ideal) x0 x1 x2 x3 x4 x5 x6 x7 x8 x9 x10 x11 x12 x19 x20 x21) x16 (biasRow x17) x18 := by
  funext i
  obtain ⟨r, q, rfl⟩ : ∃ (r : Fin 500000) (q : Fin 64), i = ix2 r q := ⟨i 0, i 1, eq_ix2 i⟩
  have e : idx_main_v139 (idx_main_v140 (ix2 r q)) = ix1 q := funext fun a => by match a with | ⟨0, _⟩ => rfl
  rw [val_main_v143_apply, val_main_v141_apply, val_main_v140_apply, val_main_v139_apply, e]
  rfl

/-- The reference's normalisation: the pointwise normalisation of the third layer's result, the per-node means and
    variances, and the weight, bias and mean-scale vectors as rows. -/
theorem layerNorm (x0 : (⟨S500000x1, .f32⟩ : BufTy).Contents (Elt Ideal)) (x1 : (⟨S2x2000000, .i32⟩ : BufTy).Contents (Elt Ideal)) (x2 : (⟨S2000000, .f32⟩ : BufTy).Contents (Elt Ideal)) (x3 : (⟨S500000, .i32⟩ : BufTy).Contents (Elt Ideal)) (x4 : (⟨S1x16, .f32⟩ : BufTy).Contents (Elt Ideal)) (x5 : (⟨S16, .f32⟩ : BufTy).Contents (Elt Ideal)) (x6 : (⟨S1x16, .f32⟩ : BufTy).Contents (Elt Ideal)) (x7 : (⟨S16x32, .f32⟩ : BufTy).Contents (Elt Ideal)) (x8 : (⟨S32, .f32⟩ : BufTy).Contents (Elt Ideal)) (x9 : (⟨S16x32, .f32⟩ : BufTy).Contents (Elt Ideal)) (x10 : (⟨S32x64, .f32⟩ : BufTy).Contents (Elt Ideal)) (x11 : (⟨S64, .f32⟩ : BufTy).Contents (Elt Ideal)) (x12 : (⟨S32x64, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) :
    val_main_v105 (F := Ideal) x0 x1 x2 x3 x4 x5 x6 x7 x8 x9 x10 x11 x12 x19 x20 x21 = norm 0x3727C5AC#32 (val_main_v62 (F := Ideal) x0 x1 x2 x4 x5 x6 x7 x8 x9 x10 x11 x12) (val_main_v78 (F := Ideal) x0 x1 x2 x3 x4 x5 x6 x7 x8 x9 x10 x11 x12) (val_main_v98 (F := Ideal) x0 x1 x2 x3 x4 x5 x6 x7 x8 x9 x10 x11 x12 x21) (biasRow x19) (biasRow x20) (biasRow x21) := by
  funext i
  obtain ⟨r, q, rfl⟩ : ∃ (r : Fin 500000) (q : Fin 64), i = ix2 r q := ⟨i 0, i 1, eq_ix2 i⟩
  have ew : idx_main_v89 (idx_main_v90 (ix2 r q)) = ix1 q := funext fun a => by match a with | ⟨0, _⟩ => rfl
  have eb : idx_main_v103 (idx_main_v104 (ix2 r q)) = ix1 q := funext fun a => by match a with | ⟨0, _⟩ => rfl
  have es : idx_main_v79 (idx_main_v80 (ix2 r q)) = ix1 q := funext fun a => by match a with | ⟨0, _⟩ => rfl
  rw [val_main_v105_apply, val_main_v102_apply, val_main_v91_apply, val_main_v90_apply, val_main_v89_apply, ew,
    val_main_v82_apply, val_main_v81_apply, val_main_v80_apply, val_main_v79_apply, es,
    val_main_v101_apply, val_main_v100_apply, val_main_v99_apply, val_main_cst_15_apply,
    val_main_v104_apply, val_main_v103_apply, eb]
  rfl

end Cert.ReferenceIdeal.Layers

end
-- ==== Proof.Chain.lean ====
/-
  The kernel's buffers, boundary by boundary, are the reference's own stages.

  Both programs compute the irregular parts of every layer — the gather of neighbour features along the edges, the
  product with the edge weights, the scatter-add into the destination nodes, and for the normalisation the per-graph
  counts, means and variances — by the same host operations in the same order.  They differ only in the dense stage of
  each layer and in the normalisation's pointwise stage, which the reference computes on the whole arrays at once and
  the kernel in a region, by blocks of rows.  So, walking the kernel's twelve segments from the launch:
  after a stretch of host operations the aggregated messages are the reference's aggregated messages (the same
  operations applied to operands already identified), and after a region its output array is the reference's layer
  result (the region's whole-array value, then the reference's layer read as that same function).  At the end the two
  result arrays are the reference's two results, as functions of the arguments.
-/
import proofs.«162785_j13211319403150_1_alg».proof.Proof.Gen.KernelIdeal.Frame
import proofs.«162785_j13211319403150_1_alg».proof.Proof.Gen.ReferenceIdeal.Read
import proofs.«162785_j13211319403150_1_alg».proof.Proof.Carry
import proofs.«162785_j13211319403150_1_alg».proof.Proof.Region0
import proofs.«162785_j13211319403150_1_alg».proof.Proof.Region1
import proofs.«162785_j13211319403150_1_alg».proof.Proof.Region2
import proofs.«162785_j13211319403150_1_alg».proof.Proof.Region3
import proofs.«162785_j13211319403150_1_alg».proof.Proof.Region4
import proofs.«162785_j13211319403150_1_alg».proof.Proof.Region5
import proofs.«162785_j13211319403150_1_alg».proof.Proof.RefLayers
import proofs.«162785_j13211319403150_1_alg».proof.Proof.RowOf
import Idealize.ShloMosaic.Lib.StableHlo.Run

set_option maxRecDepth 16384

noncomputable section

namespace Cert.KernelIdeal.Chain

open Cert.KernelIdeal Cert.KernelIdeal.Gen Cert.KernelIdeal.Carry Cert.GraphEnc
open Cert.ReferenceIdeal.Read Cert.ReferenceIdeal.Layers
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch: the edge endpoints, the first layer's aggregated messages, its bias as a row -/

theorem s0_v1 : W1 m ρ c (Proc.devRef .tc main_v1) = val_main_v1 (F := Ideal) (m ((c : Thread nD τ).loc main_arg1)) := by
  show StableHlo.after hostOps0 (W0 m ρ c) (Proc.devRef .tc main_v1) = _
  after_results
  try rfl
theorem s0_v3 : W1 m ρ c (Proc.devRef .tc main_v3) = val_main_v3 (F := Ideal) (m ((c : Thread nD τ).loc main_arg1)) := by
  show StableHlo.after hostOps0 (W0 m ρ c) (Proc.devRef .tc main_v3) = _
  after_results
  try rfl
theorem s0_v15 : W1 m ρ c (Proc.devRef .tc main_v15) = val_main_v15 (F := Ideal) (m ((c : Thread nD τ).loc main_arg0)) (m ((c : Thread nD τ).loc main_arg1)) (m ((c : Thread nD τ).loc main_arg2)) := by
  show StableHlo.after hostOps0 (W0 m ρ c) (Proc.devRef .tc main_v15) = _
  after_results_simp
  try rfl
theorem s0_v16 : W1 m ρ c (Proc.devRef .tc main_v16) = biasRow (m ((c : Thread nD τ).loc main_arg5)) := by
  show StableHlo.after hostOps0 (W0 m ρ c) (Proc.devRef .tc main_v16) = _
  after_results
  exact shapeCast_row _ _

/-- After region 0 its output array is the reference's first layer. -/
theorem s2_v17 : W2 m ρ c (Proc.devRef .tc main_v17) = val_main_v22 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (W2_arr m ρ c 5).trans ?_
  rw [Layer0.final (V1 m ρ) c]
  show denseRelu (W1 m ρ c (Proc.devRef .tc main_v15)) (W1 m ρ c (Proc.devRef .tc main_arg0)) (W1 m ρ c (Proc.devRef .tc main_arg4)) (W1 m ρ c (Proc.devRef .tc main_v16)) (W1 m ρ c (Proc.devRef .tc main_arg6)) = _
  rw [s0_v15 m ρ c, W1_arg m ρ c main_arg0 (by decide), s0_v16 m ρ c, W1_arg m ρ c main_arg4 (by decide), W1_arg m ρ c main_arg6 (by decide)]
  exact (layer1 _ _ _ _ _ _).symm

/-! ## After stretch 1: the next layer's aggregated messages, its bias as a row, its input carried over -/

theorem s3_v30 : W3 m ρ c (Proc.devRef .tc main_v30) = val_main_v35 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  show StableHlo.after hostOps1 (W2 m ρ c) (Proc.devRef .tc main_v30) = _
  after_results_simp
  rw [s2_v17 m ρ c, W2_edge m ρ c main_v1 (by decide), W2_edge m ρ c main_v3 (by decide), s0_v1 m ρ c, s0_v3 m ρ c, W2_arg m ρ c main_arg2 (by decide)]
  try rfl
theorem s3_v31 : W3 m ρ c (Proc.devRef .tc main_v31) = biasRow (m ((c : Thread nD τ).loc main_arg8)) := by
  show StableHlo.after hostOps1 (W2 m ρ c) (Proc.devRef .tc main_v31) = _
  after_results
  rw [W2_arg m ρ c main_arg8 (by decide)]
  exact shapeCast_row _ _
theorem s3_v17 : W3 m ρ c (Proc.devRef .tc main_v17) = val_main_v22 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W3_of m ρ c main_v17 (by decide)).trans (s2_v17 m ρ c)

/-- After region 1 its output array is the reference's second layer. -/
theorem s4_v32 : W4 m ρ c (Proc.devRef .tc main_v32) = val_main_v42 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 5).trans ?_
  rw [Layer1.final (V3 m ρ) c]
  show denseRelu (W3 m ρ c (Proc.devRef .tc main_v30)) (W3 m ρ c (Proc.devRef .tc main_v17)) (W3 m ρ c (Proc.devRef .tc main_arg7)) (W3 m ρ c (Proc.devRef .tc main_v31)) (W3 m ρ c (Proc.devRef .tc main_arg9)) = _
  rw [s3_v30 m ρ c, s3_v17 m ρ c, s3_v31 m ρ c, W3_arg m ρ c main_arg7 (by decide), W3_arg m ρ c main_arg9 (by decide)]
  exact (layer2 _ _ _ _ _ _ _ _ _).symm

/-! ## After stretch 2: the next layer's aggregated messages, its bias as a row, its input carried over -/

theorem s5_v45 : W5 m ρ c (Proc.devRef .tc main_v45) = val_main_v55 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v45) = _
  after_results_simp
  rw [s4_v32 m ρ c, W4_edge m ρ c main_v1 (by decide), W4_edge m ρ c main_v3 (by decide), s0_v1 m ρ c, s0_v3 m ρ c, W4_arg m ρ c main_arg2 (by decide)]
  try rfl
theorem s5_v46 : W5 m ρ c (Proc.devRef .tc main_v46) = biasRow (m ((c : Thread nD τ).loc main_arg11)) := by
  show StableHlo.after hostOps2 (W4 m ρ c) (Proc.devRef .tc main_v46) = _
  after_results
  rw [W4_arg m ρ c main_arg11 (by decide)]
  exact shapeCast_row _ _
theorem s5_v32 : W5 m ρ c (Proc.devRef .tc main_v32) = val_main_v42 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W5_of m ρ c main_v32 (by decide)).trans (s4_v32 m ρ c)

/-- After region 2 its output array is the reference's third layer. -/
theorem s6_v47 : W6 m ρ c (Proc.devRef .tc main_v47) = val_main_v62 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 5).trans ?_
  rw [Layer2.final (V5 m ρ) c]
  show denseRelu (W5 m ρ c (Proc.devRef .tc main_v45)) (W5 m ρ c (Proc.devRef .tc main_v32)) (W5 m ρ c (Proc.devRef .tc main_arg10)) (W5 m ρ c (Proc.devRef .tc main_v46)) (W5 m ρ c (Proc.devRef .tc main_arg12)) = _
  rw [s5_v45 m ρ c, s5_v32 m ρ c, s5_v46 m ρ c, W5_arg m ρ c main_arg10 (by decide), W5_arg m ρ c main_arg12 (by decide)]
  exact (layer3 _ _ _ _ _ _ _ _ _ _ _ _).symm

/-! ## After stretch 3: the per-node means and variances, the three parameter vectors as rows -/

theorem s7_v63 : W7 m ρ c (Proc.devRef .tc main_v63) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps3 (W6 m ρ c) (Proc.devRef .tc main_v63) = _
  after_results_simp
  rw [s6_v47 m ρ c, W6_arg m ρ c main_arg3 (by decide)]
  try rfl
theorem s7_v80 : W7 m ρ c (Proc.devRef .tc main_v80) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg21)) := by
  show StableHlo.after hostOps3 (W6 m ρ c) (Proc.devRef .tc main_v80) = _
  after_results_simp
  rw [s6_v47 m ρ c, W6_arg m ρ c main_arg3 (by decide), W6_arg m ρ c main_arg21 (by decide)]
  try rfl
theorem s7_v81 : W7 m ρ c (Proc.devRef .tc main_v81) = biasRow (m ((c : Thread nD τ).loc main_arg19)) := by
  show StableHlo.after hostOps3 (W6 m ρ c) (Proc.devRef .tc main_v81) = _
  after_results_simp
  rw [W6_arg m ρ c main_arg19 (by decide)]
  exact shapeCast_row _ _
theorem s7_v82 : W7 m ρ c (Proc.devRef .tc main_v82) = biasRow (m ((c : Thread nD τ).loc main_arg20)) := by
  show StableHlo.after hostOps3 (W6 m ρ c) (Proc.devRef .tc main_v82) = _
  after_results_simp
  rw [W6_arg m ρ c main_arg20 (by decide)]
  exact shapeCast_row _ _
theorem s7_v83 : W7 m ρ c (Proc.devRef .tc main_v83) = biasRow (m ((c : Thread nD τ).loc main_arg21)) := by
  show StableHlo.after hostOps3 (W6 m ρ c) (Proc.devRef .tc main_v83) = _
  after_results_simp
  rw [W6_arg m ρ c main_arg21 (by decide)]
  exact shapeCast_row _ _
theorem s7_v47 : W7 m ρ c (Proc.devRef .tc main_v47) = val_main_v62 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W7_of m ρ c main_v47 (by decide)).trans (s6_v47 m ρ c)

/-- After region 3 its output array is the reference's normalised features. -/
theorem s8_v84 : W8 m ρ c (Proc.devRef .tc main_v84) = val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg19)) (m ((c : Thread nD τ).loc main_arg20)) (m ((c : Thread nD τ).loc main_arg21)) := by
  refine (W8_arr m ρ c 6).trans ?_
  rw [Layer3.final (V7 m ρ) c]
  show norm 0x3727C5AC#32 (W7 m ρ c (Proc.devRef .tc main_v47)) (W7 m ρ c (Proc.devRef .tc main_v63)) (W7 m ρ c (Proc.devRef .tc main_v80)) (W7 m ρ c (Proc.devRef .tc main_v81)) (W7 m ρ c (Proc.devRef .tc main_v82)) (W7 m ρ c (Proc.devRef .tc main_v83)) = _
  rw [s7_v47 m ρ c, s7_v63 m ρ c, s7_v80 m ρ c, s7_v81 m ρ c, s7_v82 m ρ c, s7_v83 m ρ c]
  exact (layerNorm _ _ _ _ _ _ _ _ _ _ _ _ _ _ _ _).symm

/-! ## After stretch 4: the next layer's aggregated messages, its bias as a row, its input carried over -/

theorem s9_v97 : W9 m ρ c (Proc.devRef .tc main_v97) = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg19)) (m ((c : Thread nD τ).loc main_arg20)) (m ((c : Thread nD τ).loc main_arg21)) := by
  show StableHlo.after hostOps4 (W8 m ρ c) (Proc.devRef .tc main_v97) = _
  after_results_simp
  rw [s8_v84 m ρ c, W8_edge m ρ c main_v1 (by decide), W8_edge m ρ c main_v3 (by decide), s0_v1 m ρ c, s0_v3 m ρ c, W8_arg m ρ c main_arg2 (by decide)]
  try rfl
theorem s9_v98 : W9 m ρ c (Proc.devRef .tc main_v98) = biasRow (m ((c : Thread nD τ).loc main_arg14)) := by
  show StableHlo.after hostOps4 (W8 m ρ c) (Proc.devRef .tc main_v98) = _
  after_results
  rw [W8_arg m ρ c main_arg14 (by decide)]
  exact shapeCast_row _ _
theorem s9_v84 : W9 m ρ c (Proc.devRef .tc main_v84) = val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg19)) (m ((c : Thread nD τ).loc main_arg20)) (m ((c : Thread nD τ).loc main_arg21)) :=
  (W9_of m ρ c main_v84 (by decide)).trans (s8_v84 m ρ c)

/-- After region 4 its output array is the reference's first result. -/
theorem s10_v99 : W10 m ρ c (Proc.devRef .tc main_v99) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg19)) (m ((c : Thread nD τ).loc main_arg20)) (m ((c : Thread nD τ).loc main_arg21)) := by
  refine (W10_arr m ρ c 5).trans ?_
  rw [Layer4.final (V9 m ρ) c]
  show dense (W9 m ρ c (Proc.devRef .tc main_v97)) (W9 m ρ c (Proc.devRef .tc main_v84)) (W9 m ρ c (Proc.devRef .tc main_arg13)) (W9 m ρ c (Proc.devRef .tc main_v98)) (W9 m ρ c (Proc.devRef .tc main_arg15)) = _
  rw [s9_v97 m ρ c, s9_v84 m ρ c, s9_v98 m ρ c, W9_arg m ρ c main_arg13 (by decide), W9_arg m ρ c main_arg15 (by decide)]
  exact (layerMu _ _ _ _ _ _ _ _ _ _ _ _ _ _ _ _ _ _ _).symm
theorem s10_v84 : W10 m ρ c (Proc.devRef .tc main_v84) = val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg19)) (m ((c : Thread nD τ).loc main_arg20)) (m ((c : Thread nD τ).loc main_arg21)) :=
  (W10_keep m ρ c main_v84 (by decide)).trans (s9_v84 m ρ c)

/-! ## After stretch 5: the next layer's aggregated messages, its bias as a row, its input carried over -/

theorem s11_v112 : W11 m ρ c (Proc.devRef .tc main_v112) = val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg19)) (m ((c : Thread nD τ).loc main_arg20)) (m ((c : Thread nD τ).loc main_arg21)) := by
  show StableHlo.after hostOps5 (W10 m ρ c) (Proc.devRef .tc main_v112) = _
  after_results_simp
  rw [s10_v84 m ρ c, W10_edge m ρ c main_v1 (by decide), W10_edge m ρ c main_v3 (by decide), s0_v1 m ρ c, s0_v3 m ρ c, W10_arg m ρ c main_arg2 (by decide)]
  try rfl
theorem s11_v113 : W11 m ρ c (Proc.devRef .tc main_v113) = biasRow (m ((c : Thread nD τ).loc main_arg17)) := by
  show StableHlo.after hostOps5 (W10 m ρ c) (Proc.devRef .tc main_v113) = _
  after_results
  rw [W10_arg m ρ c main_arg17 (by decide)]
  exact shapeCast_row _ _
theorem s11_v84 : W11 m ρ c (Proc.devRef .tc main_v84) = val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg19)) (m ((c : Thread nD τ).loc main_arg20)) (m ((c : Thread nD τ).loc main_arg21)) :=
  (W11_of m ρ c main_v84 (by decide)).trans (s10_v84 m ρ c)

/-- After region 5 its output array is the reference's second result. -/
theorem s12_v114 : W12 m ρ c (Proc.devRef .tc main_v114) = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  refine (W12_arr m ρ c 5).trans ?_
  rw [Layer5.final (V11 m ρ) c]
  show dense (W11 m ρ c (Proc.devRef .tc main_v112)) (W11 m ρ c (Proc.devRef .tc main_v84)) (W11 m ρ c (Proc.devRef .tc main_arg16)) (W11 m ρ c (Proc.devRef .tc main_v113)) (W11 m ρ c (Proc.devRef .tc main_arg18)) = _
  rw [s11_v112 m ρ c, s11_v84 m ρ c, s11_v113 m ρ c, W11_arg m ρ c main_arg16 (by decide), W11_arg m ρ c main_arg18 (by decide)]
  exact (layerLv _ _ _ _ _ _ _ _ _ _ _ _ _ _ _ _ _ _ _).symm

/-- The first result array is carried from region 4's exit to the end. -/
theorem s12_v99 : W12 m ρ c (Proc.devRef .tc main_v99) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg19)) (m ((c : Thread nD τ).loc main_arg20)) (m ((c : Thread nD τ).loc main_arg21)) :=
  (W12_keep m ρ c main_v99 (by decide)).trans ((W11_of m ρ c main_v99 (by decide)).trans (s10_v99 m ρ c))

end Cert.KernelIdeal.Chain

end
-- ==== Proof.lean ====
/-
  The certificate's claims.

  The three frames are the generated ones (the two kernels' over their twelve segments; the reference's its generated
  run with the results dropped).  The idealization ledger is empty.  For the value claim, at the ideal values the two
  programs are the same function of the arguments: the kernel's two result arrays, read off its run boundary by
  boundary, are the reference's two composed stages — every layer's irregular part by the same host operations on both
  sides, every layer's dense part and the normalisation's pointwise part by blocks of rows in the kernel and on whole
  arrays in the reference, which agree entry by entry with no algebraic law and hence with no use of finiteness.
-/
import proofs.«162785_j13211319403150_1_alg».proof.Defs
import proofs.«162785_j13211319403150_1_alg».proof.Proof.Gen.Kernel
import proofs.«162785_j13211319403150_1_alg».proof.Proof.Gen.Kernel.Skeleton
import proofs.«162785_j13211319403150_1_alg».proof.Proof.Gen.Kernel.Launch
import proofs.«162785_j13211319403150_1_alg».proof.Proof.Gen.Kernel.Points
import proofs.«162785_j13211319403150_1_alg».proof.Proof.Gen.Kernel.Frame
import proofs.«162785_j13211319403150_1_alg».proof.Proof.Gen.KernelIdeal
import proofs.«162785_j13211319403150_1_alg».proof.Proof.Gen.KernelIdeal.Skeleton
import proofs.«162785_j13211319403150_1_alg».proof.Proof.Gen.KernelIdeal.Launch
import proofs.«162785_j13211319403150_1_alg».proof.Proof.Gen.KernelIdeal.Points
import proofs.«162785_j13211319403150_1_alg».proof.Proof.Gen.KernelIdeal.Frame
import proofs.«162785_j13211319403150_1_alg».proof.Proof.Gen.ReferenceIdeal
import proofs.«162785_j13211319403150_1_alg».proof.Proof.Gen.ReferenceIdeal.Run
import proofs.«162785_j13211319403150_1_alg».proof.Proof.Gen.ReferenceIdeal.Read
import proofs.«162785_j13211319403150_1_alg».proof.Proof.Gen.Pre_finite_inputs
import proofs.«162785_j13211319403150_1_alg».proof.Proof.KernelRun
import proofs.«162785_j13211319403150_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- At the ideal values the kernel's two result arrays and the reference's are the same two functions of the
    arguments: the reference's composed stages. -/
theorem algebraic : Cert.algebraic_KernelIdeal_ReferenceIdeal := by
  intro m ρ m' ρ' _ hagree
  refine ⟨fun c => Cert.ReferenceIdeal.Read.val_main_v124 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)),
    fun c => Cert.ReferenceIdeal.Read.val_main_v143 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · refine (θ_run Cert.KernelIdeal.defs _ _).mono (fun r h c => ?_) (Cert.KernelIdeal.Named.run_named (F := Ideal) m ρ)
    exact ⟨(h c Cert.KernelIdeal.main_v99 (by decide)).trans (Cert.KernelIdeal.Chain.s12_v99 m ρ c),
      (h c Cert.KernelIdeal.main_v114 (by decide)).trans (Cert.KernelIdeal.Chain.s12_v114 m ρ c),
      (h c Cert.KernelIdeal.main_arg0 (by decide)).trans (Cert.KernelIdeal.Gen.W12_main_arg0 m ρ c),
      (h c Cert.KernelIdeal.main_arg1 (by decide)).trans (Cert.KernelIdeal.Gen.W12_main_arg1 m ρ c),
      (h c Cert.KernelIdeal.main_arg2 (by decide)).trans (Cert.KernelIdeal.Gen.W12_main_arg2 m ρ c),
      (h c Cert.KernelIdeal.main_arg3 (by decide)).trans (Cert.KernelIdeal.Gen.W12_main_arg3 m ρ c),
      (h c Cert.KernelIdeal.main_arg4 (by decide)).trans (Cert.KernelIdeal.Gen.W12_main_arg4 m ρ c),
      (h c Cert.KernelIdeal.main_arg5 (by decide)).trans (Cert.KernelIdeal.Gen.W12_main_arg5 m ρ c),
      (h c Cert.KernelIdeal.main_arg6 (by decide)).trans (Cert.KernelIdeal.Gen.W12_main_arg6 m ρ c),
      (h c Cert.KernelIdeal.main_arg7 (by decide)).trans (Cert.KernelIdeal.Gen.W12_main_arg7 m ρ c),
      (h c Cert.KernelIdeal.main_arg8 (by decide)).trans (Cert.KernelIdeal.Gen.W12_main_arg8 m ρ c),
      (h c Cert.KernelIdeal.main_arg9 (by decide)).trans (Cert.KernelIdeal.Gen.W12_main_arg9 m ρ c),
      (h c Cert.KernelIdeal.main_arg10 (by decide)).trans (Cert.KernelIdeal.Gen.W12_main_arg10 m ρ c),
      (h c Cert.KernelIdeal.main_arg11 (by decide)).trans (Cert.KernelIdeal.Gen.W12_main_arg11 m ρ c),
      (h c Cert.KernelIdeal.main_arg12 (by decide)).trans (Cert.KernelIdeal.Gen.W12_main_arg12 m ρ c),
      (h c Cert.KernelIdeal.main_arg13 (by decide)).trans (Cert.KernelIdeal.Gen.W12_main_arg13 m ρ c),
      (h c Cert.KernelIdeal.main_arg14 (by decide)).trans (Cert.KernelIdeal.Gen.W12_main_arg14 m ρ c),
      (h c Cert.KernelIdeal.main_arg15 (by decide)).trans (Cert.KernelIdeal.Gen.W12_main_arg15 m ρ c),
      (h c Cert.KernelIdeal.main_arg16 (by decide)).trans (Cert.KernelIdeal.Gen.W12_main_arg16 m ρ c),
      (h c Cert.KernelIdeal.main_arg17 (by decide)).trans (Cert.KernelIdeal.Gen.W12_main_arg17 m ρ c),
      (h c Cert.KernelIdeal.main_arg18 (by decide)).trans (Cert.KernelIdeal.Gen.W12_main_arg18 m ρ c),
      (h c Cert.KernelIdeal.main_arg19 (by decide)).trans (Cert.KernelIdeal.Gen.W12_main_arg19 m ρ c),
      (h c Cert.KernelIdeal.main_arg20 (by decide)).trans (Cert.KernelIdeal.Gen.W12_main_arg20 m ρ c),
      (h c Cert.KernelIdeal.main_arg21 (by decide)).trans (Cert.KernelIdeal.Gen.W12_main_arg21 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v124_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]
    · rw [Cert.ReferenceIdeal.Read.val_main_v143_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
